-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x64 .f32) (main_arg1 : IVec S2x1600000 32) (main_arg2 : FVec F S64x128 .f32) (main_arg3 : FVec F S128 .f32) (main_arg4 : FVec F S128x64 .f32) (main_arg5 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S100000x64 : Shape := ⟨2, ![100000, 64]⟩
abbrev S2x1600000 : Shape := ⟨2, ![2, 1600000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x128 : Shape := ⟨2, ![100000, 128]⟩
abbrev S2000x64 : Shape := ⟨2, ![2000, 64]⟩
abbrev S2000x1 : Shape := ⟨2, ![2000, 1]⟩
abbrev S2000x128 : Shape := ⟨2, ![2000, 128]⟩
abbrev S1600000x128 : Shape := ⟨2, ![1600000, 128]⟩
abbrev S1x128 : Shape := ⟨2, ![1, 128]⟩
abbrev S1600000x64 : Shape := ⟨2, ![1600000, 64]⟩
abbrev S1x64 : Shape := ⟨2, ![1, 64]⟩

abbrev nBuf : Space → Nat
  | .hbm => 56
  | .vmem => 30
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .f32⟩
  | .hbm, ⟨11, _⟩ => ⟨S1600000, .f32⟩
  | .hbm, ⟨12, _⟩ => ⟨S_, .f32⟩
  | .hbm, ⟨13, _⟩ => ⟨S100000, .f32⟩
  | .hbm, ⟨14, _⟩ => ⟨S1600000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S100000, .f32⟩
  | .hbm, ⟨20, _⟩ => ⟨S100000x1, .f32⟩
  | .hbm, ⟨21, _⟩ => ⟨S100000x128, .f32⟩
  | .hbm, ⟨22, _⟩ => ⟨S100000x128, .bf16⟩
  | .hbm, ⟨23, _⟩ => ⟨S_, .i32⟩
  | .hbm, ⟨24, _⟩ => ⟨S1600000, .i32⟩
  | .hbm, ⟨25, _⟩ => ⟨S1600000, .i1⟩
  | .hbm, ⟨26, _⟩ => ⟨S_, .i32⟩
  | .hbm, ⟨27, _⟩ => ⟨S1600000, .i32⟩
  | .hbm, ⟨28, _⟩ => ⟨S1600000, .i32⟩
  | .hbm, ⟨29, _⟩ => ⟨S1600000, .i32⟩
  | .hbm, ⟨30, _⟩ => ⟨S1600000x1, .i32⟩
  | .hbm, ⟨31, _⟩ => ⟨S1600000x128, .bf16⟩
  | .hbm, ⟨32, _⟩ => ⟨S1600000x128, .f32⟩
  | .hbm, ⟨33, _⟩ => ⟨S_, .f32⟩
  | .hbm, ⟨34, _⟩ => ⟨S100000x128, .f32⟩
  | .hbm, ⟨35, _⟩ => ⟨S1600000x1, .i32⟩
  | .hbm, ⟨36, _⟩ => ⟨S100000x128, .f32⟩
  | .hbm, ⟨37, _⟩ => ⟨S1x128, .f32⟩
  | .hbm, ⟨38, _⟩ => ⟨S100000x64, .f32⟩
  | .hbm, ⟨39, _⟩ => ⟨S100000x64, .bf16⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000x64, .bf16⟩
  | .hbm, ⟨49, _⟩ => ⟨S1600000x64, .f32⟩
  | .hbm, ⟨50, _⟩ => ⟨S_, .f32⟩
  | .hbm, ⟨51, _⟩ => ⟨S100000x64, .f32⟩
  | .hbm, ⟨52, _⟩ => ⟨S1600000x1, .i32⟩
  | .hbm, ⟨53, _⟩ => ⟨S100000x64, .f32⟩
  | .hbm, ⟨54, _⟩ => ⟨S1x64, .f32⟩
  | .hbm, ⟨55, _⟩ => ⟨S100000x64, .f32⟩
  | .local _ .vmem, ⟨0, _⟩ => ⟨S2000x64, .f32⟩
  | .local _ .vmem, ⟨1, _⟩ => ⟨S2000x64, .f32⟩
  | .local _ .vmem, ⟨2, _⟩ => ⟨S64x128, .f32⟩
  | .local _ .vmem, ⟨3, _⟩ => ⟨S2000x1, .f32⟩
  | .local _ .vmem, ⟨4, _⟩ => ⟨S2000x1, .f32⟩
  | .local _ .vmem, ⟨5, _⟩ => ⟨S2000x128, .f32⟩
  | .local _ .vmem, ⟨6, _⟩ => ⟨S2000x128, .f32⟩
  | .local _ .vmem, ⟨7, _⟩ => ⟨S2000x128, .bf16⟩
  | .local _ .vmem, ⟨8, _⟩ => ⟨S2000x128, .bf16⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x1, .f32⟩
  | .local _ .vmem, ⟨14, _⟩ => ⟨S2000x1, .f32⟩
  | .local _ .vmem, ⟨15, _⟩ => ⟨S1x128, .f32⟩
  | .local _ .vmem, ⟨16, _⟩ => ⟨S128x64, .f32⟩
  | .local _ .vmem, ⟨17, _⟩ => ⟨S2000x64, .f32⟩
  | .local _ .vmem, ⟨18, _⟩ => ⟨S2000x64, .f32⟩
  | .local _ .vmem, ⟨19, _⟩ => ⟨S2000x64, .bf16⟩
  | .local _ .vmem, ⟨20, _⟩ => ⟨S2000x64, .bf16⟩
  | .local _ .vmem, ⟨21, _⟩ => ⟨S2000x64, .f32⟩
  | .local _ .vmem, ⟨22, _⟩ => ⟨S2000x64, .f32⟩
  | .local _ .vmem, ⟨23, _⟩ => ⟨S2000x64, .f32⟩
  | .local _ .vmem, ⟨24, _⟩ => ⟨S2000x64, .f32⟩
  | .local _ .vmem, ⟨25, _⟩ => ⟨S2000x1, .f32⟩
  | .local _ .vmem, ⟨26, _⟩ => ⟨S2000x1, .f32⟩
  | .local _ .vmem, ⟨27, _⟩ => ⟨S1x64, .f32⟩
  | .local _ .vmem, ⟨28, _⟩ => ⟨S2000x64, .f32⟩
  | .local _ .vmem, ⟨29, _⟩ => ⟨S2000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12_0 : Ref sig .tc := ⟨.hbm, 21, rfl⟩
abbrev main_v12_1 : Ref sig .tc := ⟨.hbm, 22, rfl⟩
abbrev main_c : Ref sig .tc := ⟨.hbm, 23, rfl⟩
abbrev main_v13 : Ref sig .tc := ⟨.hbm, 24, rfl⟩
abbrev main_v14 : Ref sig .tc := ⟨.hbm, 25, rfl⟩
abbrev main_c_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25_0 : Ref sig .tc := ⟨.hbm, 38, rfl⟩
abbrev main_v25_1 : Ref sig .tc := ⟨.hbm, 39, rfl⟩
abbrev main_c_4 : Ref sig .tc := ⟨.hbm, 40, rfl⟩
abbrev main_v26 : Ref sig .tc := ⟨.hbm, 41, rfl⟩
abbrev main_v27 : Ref sig .tc := ⟨.hbm, 42, rfl⟩
abbrev main_c_5 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_6 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg5_1 : Ref sig .tc := ⟨.vmem, 18, rfl⟩
abbrev cc1_stg6_0 : Ref sig .tc := ⟨.vmem, 19, rfl⟩
abbrev cc1_stg6_1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg2_1 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg4_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem5_0 : DmaSem sig := 17
abbrev cc1_sem5_1 : DmaSem sig := 18
abbrev cc1_sem6_0 : DmaSem sig := 19
abbrev cc1_sem6_1 : DmaSem sig := 20
abbrev cc2_sem0_0 : DmaSem sig := 21
abbrev cc2_sem0_1 : DmaSem sig := 22
abbrev cc2_sem1_0 : DmaSem sig := 23
abbrev cc2_sem1_1 : DmaSem sig := 24
abbrev cc2_sem2_0 : DmaSem sig := 25
abbrev cc2_sem2_1 : DmaSem sig := 26
abbrev cc2_sem3_0 : DmaSem sig := 27
abbrev cc2_sem4_0 : DmaSem sig := 28
abbrev cc2_sem4_1 : DmaSem sig := 29

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S2000x64 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S2000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S2000x64_S2000x64_0_0 : ∀ a, (![0, 0] : Fin 2 → Nat) a + S2000x64.size a ≤ S2000x64.size a
  h_S2000x64 : 0 < S2000x64.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  inb_S2000x128_S2000x128_0_0 : ∀ a, (![0, 0] : Fin 2 → Nat) a + S2000x128.size a ≤ S2000x128.size a
  h_S2000x128 : 0 < S2000x128.numel
  packedbf16_S2000x128_S2000x128_0_0 : (Rect.unit (s := S2000x128) ![0, 0] S2000x128.size inb_S2000x128_S2000x128_0_0).PackedRows (EltTy.packing .bf16)
  bcast_S_S100000x128 : S_.BroadcastsInDim S100000x128 (![] : Fin 0 → Fin S100000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x64_S128x64_0_0 : ∀ a, (![0, 0] : Fin 2 → Nat) a + S128x64.size a ≤ S128x64.size a
  h_S128x64 : 0 < S128x64.numel
  broadcasts_S2000x1_S2000x64 : S2000x1.Broadcasts S2000x64
  packedbf16_S2000x64_S2000x64_0_0 : (Rect.unit (s := S2000x64) ![0, 0] S2000x64.size inb_S2000x64_S2000x64_0_0).PackedRows (EltTy.packing .bf16)
  bcast_S_S100000x64 : S_.BroadcastsInDim S100000x64 (![] : Fin 0 → Fin S100000x64.rank)
  shapeCasts_S64_S1x64 : S64.ShapeCasts S1x64
  shapeCasts_S2000x64_S2000x64 : S2000x64.ShapeCasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  scatter_S100000_S1600000x1_S1600000_n_0_0_1_wf : ScatterDims.WF S100000 S1600000x1 S1600000 [] [0] [0] 1
  dot_S2000x64_S64x128_S2000x128_1_0_0_1_n_n_wf : DotDims.WF S2000x64 S64x128 S2000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x64_S2000x64_1_0_0_1_n_n_wf : DotDims.WF S2000x128 S128x64 S2000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S100000x64.size a
  hwx0_0 : ∀ i : grid0.Coords, EltTy.bits .f32 = 32 ∨ (Rect.block (s := S100000x64) S2000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S100000x1.size a
  hwx0_2 : ∀ i : grid0.Coords, EltTy.bits .f32 = 32 ∨ (Rect.block (s := S100000x1) S2000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S100000x128.size a
  hwx0_3 : ∀ i : grid0.Coords, EltTy.bits .f32 = 32 ∨ (Rect.block (s := S100000x128) S2000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x128.size a ≤ S100000x128.size a
  hwx0_4 : ∀ i : grid0.Coords, EltTy.bits .bf16 = 32 ∨ (Rect.block (s := S100000x128) S2000x128.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S100000x1.size a
  hwx1_2 : ∀ i : grid1.Coords, EltTy.bits .f32 = 32 ∨ (Rect.block (s := S100000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x64.size a ≤ S128x64.size a
  hwx1_4 : ∀ i : grid1.Coords, EltTy.bits .f32 = 32 ∨ (Rect.block (s := S128x64) S128x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x64.size a ≤ S100000x64.size a
  hwx1_5 : ∀ i : grid1.Coords, EltTy.bits .f32 = 32 ∨ (Rect.block (s := S100000x64) S2000x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x64.size a ≤ S100000x64.size a
  hwx1_6 : ∀ i : grid1.Coords, EltTy.bits .bf16 = 32 ∨ (Rect.block (s := S100000x64) S2000x64.size (cc1_transform_6 i) (hinb1_6 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S100000x64.size a
  hwx2_0 : ∀ i : grid2.Coords, EltTy.bits .f32 = 32 ∨ (Rect.block (s := S100000x64) S2000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x64.size a ≤ S100000x64.size a
  hwx2_1 : ∀ i : grid2.Coords, EltTy.bits .f32 = 32 ∨ (Rect.block (s := S100000x64) S2000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S100000x1.size a
  hwx2_2 : ∀ i : grid2.Coords, EltTy.bits .f32 = 32 ∨ (Rect.block (s := S100000x1) S2000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x64.size a ≤ S100000x64.size a
  hwx2_4 : ∀ i : grid2.Coords, EltTy.bits .f32 = 32 ∨ (Rect.block (s := S100000x64) S2000x64.size (cc2_transform_4 i) (hinb2_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S2000x64_S64x128_S2000x128_1_0_0_1_n_n : DotDims S2000x64 S64x128 S2000x128 where
  lhsContracting := [1]
  rhsContracting := [0]
  lhsNonContracting := [0]
  rhsNonContracting := [1]
  lhsBatch := []
  rhsBatch := []
  wf := dot_S2000x64_S64x128_S2000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12_0) S2000x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v12_1) S2000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v12_0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v24) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S128x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v25_0) S2000x64.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v25_1) S2000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v25_0) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v36) S2000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v11) S2000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v37) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v38) S2000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x128 : Shape := ⟨2, ![100000, 128]⟩
abbrev S1600000x128 : Shape := ⟨2, ![1600000, 128]⟩
abbrev S100000x1 : Shape := ⟨2, ![100000, 1]⟩
abbrev S1x128 : Shape := ⟨2, ![1, 128]⟩
abbrev S1600000x64 : Shape := ⟨2, ![1600000, 64]⟩
abbrev S1x64 : Shape := ⟨2, ![1, 64]⟩

abbrev nBuf : Space → Nat
  | .hbm => 125
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .f32⟩
  | .hbm, ⟨11, _⟩ => ⟨S1600000, .f32⟩
  | .hbm, ⟨12, _⟩ => ⟨S_, .f32⟩
  | .hbm, ⟨13, _⟩ => ⟨S100000, .f32⟩
  | .hbm, ⟨14, _⟩ => ⟨S1600000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S100000, .f32⟩
  | .hbm, ⟨20, _⟩ => ⟨S100000x128, .f32⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S1600000, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000, .f32⟩
  | .hbm, ⟨39, _⟩ => ⟨S1600000, .f32⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000x128, .f32⟩
  | .hbm, ⟨49, _⟩ => ⟨S1600000x1, .f32⟩
  | .hbm, ⟨50, _⟩ => ⟨S1600000x128, .f32⟩
  | .hbm, ⟨51, _⟩ => ⟨S1600000x128, .f32⟩
  | .hbm, ⟨52, _⟩ => ⟨S_, .f32⟩
  | .hbm, ⟨53, _⟩ => ⟨S100000x128, .f32⟩
  | .hbm, ⟨54, _⟩ => ⟨S1600000x1, .i32⟩
  | .hbm, ⟨55, _⟩ => ⟨S100000x128, .f32⟩
  | .hbm, ⟨56, _⟩ => ⟨S100000, .f32⟩
  | .hbm, ⟨57, _⟩ => ⟨S100000x1, .f32⟩
  | .hbm, ⟨58, _⟩ => ⟨S100000x128, .f32⟩
  | .hbm, ⟨59, _⟩ => ⟨S100000x128, .f32⟩
  | .hbm, ⟨60, _⟩ => ⟨S100000x128, .f32⟩
  | .hbm, ⟨61, _⟩ => ⟨S1x128, .f32⟩
  | .hbm, ⟨62, _⟩ => ⟨S100000x128, .f32⟩
  | .hbm, ⟨63, _⟩ => ⟨S100000x128, .f32⟩
  | .hbm, ⟨64, _⟩ => ⟨S_, .f32⟩
  | .hbm, ⟨65, _⟩ => ⟨S100000x128, .f32⟩
  | .hbm, ⟨66, _⟩ => ⟨S100000x128, .f32⟩
  | .hbm, ⟨67, _⟩ => ⟨S1x1600000, .i32⟩
  | .hbm, ⟨68, _⟩ => ⟨S1600000, .i32⟩
  | .hbm, ⟨69, _⟩ => ⟨S1x1600000, .i32⟩
  | .hbm, ⟨70, _⟩ => ⟨S1600000, .i32⟩
  | .hbm, ⟨71, _⟩ => ⟨S_, .f32⟩
  | .hbm, ⟨72, _⟩ => ⟨S1600000, .f32⟩
  | .hbm, ⟨73, _⟩ => ⟨S_, .f32⟩
  | .hbm, ⟨74, _⟩ => ⟨S100000, .f32⟩
  | .hbm, ⟨75, _⟩ => ⟨S1600000x1, .i32⟩
  | .hbm, ⟨76, _⟩ => ⟨S100000, .f32⟩
  | .hbm, ⟨77, _⟩ => ⟨S_, .f32⟩
  | .hbm, ⟨78, _⟩ => ⟨S100000, .f32⟩
  | .hbm, ⟨79, _⟩ => ⟨S100000, .f32⟩
  | .hbm, ⟨80, _⟩ => ⟨S100000, .f32⟩
  | .hbm, ⟨81, _⟩ => ⟨S100000x64, .f32⟩
  | .hbm, ⟨82, _⟩ => ⟨S_, .i32⟩
  | .hbm, ⟨83, _⟩ => ⟨S1600000, .i32⟩
  | .hbm, ⟨84, _⟩ => ⟨S1600000, .i1⟩
  | .hbm, ⟨85, _⟩ => ⟨S_, .i32⟩
  | .hbm, ⟨86, _⟩ => ⟨S1600000, .i32⟩
  | .hbm, ⟨87, _⟩ => ⟨S1600000, .i32⟩
  | .hbm, ⟨88, _⟩ => ⟨S1600000, .i32⟩
  | .hbm, ⟨89, _⟩ => ⟨S1600000x1, .i32⟩
  | .hbm, ⟨90, _⟩ => ⟨S1600000, .f32⟩
  | .hbm, ⟨91, _⟩ => ⟨S_, .i32⟩
  | .hbm, ⟨92, _⟩ => ⟨S1600000, .i32⟩
  | .hbm, ⟨93, _⟩ => ⟨S1600000, .i1⟩
  | .hbm, ⟨94, _⟩ => ⟨S_, .i32⟩
  | .hbm, ⟨95, _⟩ => ⟨S1600000, .i32⟩
  | .hbm, ⟨96, _⟩ => ⟨S1600000, .i32⟩
  | .hbm, ⟨97, _⟩ => ⟨S1600000, .i32⟩
  | .hbm, ⟨98, _⟩ => ⟨S1600000x1, .i32⟩
  | .hbm, ⟨99, _⟩ => ⟨S1600000, .f32⟩
  | .hbm, ⟨100, _⟩ => ⟨S1600000, .f32⟩
  | .hbm, ⟨101, _⟩ => ⟨S_, .i32⟩
  | .hbm, ⟨102, _⟩ => ⟨S1600000, .i32⟩
  | .hbm, ⟨103, _⟩ => ⟨S1600000, .i1⟩
  | .hbm, ⟨104, _⟩ => ⟨S_, .i32⟩
  | .hbm, ⟨105, _⟩ => ⟨S1600000, .i32⟩
  | .hbm, ⟨106, _⟩ => ⟨S1600000, .i32⟩
  | .hbm, ⟨107, _⟩ => ⟨S1600000, .i32⟩
  | .hbm, ⟨108, _⟩ => ⟨S1600000x1, .i32⟩
  | .hbm, ⟨109, _⟩ => ⟨S1600000x64, .f32⟩
  | .hbm, ⟨110, _⟩ => ⟨S1600000x1, .f32⟩
  | .hbm, ⟨111, _⟩ => ⟨S1600000x64, .f32⟩
  | .hbm, ⟨112, _⟩ => ⟨S1600000x64, .f32⟩
  | .hbm, ⟨113, _⟩ => ⟨S_, .f32⟩
  | .hbm, ⟨114, _⟩ => ⟨S100000x64, .f32⟩
  | .hbm, ⟨115, _⟩ => ⟨S1600000x1, .i32⟩
  | .hbm, ⟨116, _⟩ => ⟨S100000x64, .f32⟩
  | .hbm, ⟨117, _⟩ => ⟨S100000, .f32⟩
  | .hbm, ⟨118, _⟩ => ⟨S100000x1, .f32⟩
  | .hbm, ⟨119, _⟩ => ⟨S100000x64, .f32⟩
  | .hbm, ⟨120, _⟩ => ⟨S100000x64, .f32⟩
  | .hbm, ⟨121, _⟩ => ⟨S100000x64, .f32⟩
  | .hbm, ⟨122, _⟩ => ⟨S1x64, .f32⟩
  | .hbm, ⟨123, _⟩ => ⟨S100000x64, .f32⟩
  | .hbm, ⟨124, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_c_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_call0_cst : Ref sig .tc := ⟨.hbm, 64, rfl⟩
abbrev main_call0_v0 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_8 : Ref sig .tc := ⟨.hbm, 71, rfl⟩
abbrev main_v53 : Ref sig .tc := ⟨.hbm, 72, rfl⟩
abbrev main_cst_9 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_10 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_c_11 : Ref sig .tc := ⟨.hbm, 82, rfl⟩
abbrev main_v61 : Ref sig .tc := ⟨.hbm, 83, rfl⟩
abbrev main_v62 : Ref sig .tc := ⟨.hbm, 84, rfl⟩
abbrev main_c_12 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_c_13 : Ref sig .tc := ⟨.hbm, 91, rfl⟩
abbrev main_v68 : Ref sig .tc := ⟨.hbm, 92, rfl⟩
abbrev main_v69 : Ref sig .tc := ⟨.hbm, 93, rfl⟩
abbrev main_c_14 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_c_15 : Ref sig .tc := ⟨.hbm, 101, rfl⟩
abbrev main_v76 : Ref sig .tc := ⟨.hbm, 102, rfl⟩
abbrev main_v77 : Ref sig .tc := ⟨.hbm, 103, rfl⟩
abbrev main_c_16 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_cst_17 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1600000x1_S1600000_n_0_0_1_wf : ScatterDims.WF S100000 S1600000x1 S1600000 [] [0] [0] 1
  dot_S100000x64_S64x128_S100000x128_1_0_0_1_n_n_wf : DotDims.WF S100000x64 S64x128 S100000x128 [1] [0] [0] [1] [] []
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.KernelRun.lean ====
/-
  The idealized kernel's run with its result array NAMED. @main is six segments — a stretch of host operations and
  a pipelined region, three times — and after the last region every unscoped buffer holds the last boundary's
  contents `W6`: the fold of the host stretches' results and the regions' write-backs from the launch memory. The
  frame keeps of this only that the arguments end as launched; here the result buffer is read off the same fold.
-/
import proofs.«152188_j84507776516794_2_alg».proof.Proof.Gen.KernelIdeal.Frame

set_option maxRecDepth 16384

noncomputable section

namespace Cert.Gcn.Ker

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel's @main terminates, nothing faulting, with the result buffer at the
    last boundary's contents and the six arguments as launched. -/
theorem run_named : θ_run defs (onTc (τ := τ) (main (F := F))) ⟨m, fun _ => 0, ρ⟩ (fun r => ∀ c : Dev nD,
      r.2.mem ((c.tc : Thread nD τ).loc main_v38) = W6 m ρ c (Proc.devRef .tc main_v38)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v38 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c)⟩)

end Cert.Gcn.Ker

end
-- ==== Proof.LibColumnLayout.lean ====
/-
  Two layout readings of a column, for arrays of any extents: a vector `[a]` reshaped to a column `[a, 1]` holds the
  vector's entry `i` at `(i, 0)`, and a column `[a, 1]` broadcast along a second axis to `[a, b]` holds at `(p, c)` the
  column's entry of row `p`. (The row forms `[a] → [1, a]` and `[1, b] → [a, b]` are in the library's layout file.)
-/
import Idealize.ShloMosaic.Lib.ValueIdx
import Idealize.ShloMosaic.Lib.ValueLayout
import Idealize.ShloMosaic.Lib.Pipeline.Value

namespace Cert.Gcn.Layout

open Idealize.ShloMosaic Idealize.ShloMosaic.ValueIdx

/-- A column `[a, 1]` broadcast along the rows' features to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` array cast to a column `[a, 1]` reads, at `(i, u)`, the operand at `i`, whatever the unit coordinate. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.Gcn.Layout
-- ==== Proof.Payload.lean ====
/-
  The three kernel bodies' arithmetic, read at a row `p` and a column `q` of the block, on the extended reals.
  Body 0: a row of the block of `x` times the weights, scaled by the row's normaliser.
  Body 1: the combined and rectified row — normaliser times (aggregate + scaled row) plus the bias, clamped below at
          zero — times the second weights, scaled by the row's normaliser again.
  Body 2: normaliser times (aggregate + scaled row) plus the bias.
  A change of float format is the identity here, and a matrix product into a zero accumulator is the plain sum.
-/
import proofs.«152188_j84507776516794_2_alg».proof.Proof.Gen.KernelIdeal.Skeleton
import proofs.«152188_j84507776516794_2_alg».proof.Proof.LibColumnLayout
import Idealize.ShloMosaic.Lib.ValueIdx
import Idealize.ShloMosaic.Lib.ValueLayout
import Idealize.ShloMosaic.Lib.Pipeline.Value
import Idealize.ShloMosaic.PureOps.Ideal.Laws

noncomputable section

namespace Cert.Gcn.Ker

open Cert.KernelIdeal Cert.KernelIdeal.Gen
open Idealize.ShloMosaic Idealize.ShloMosaic.ValueIdx Cert.Gcn.Layout

/-- Output row `j 0` is the left operand's row. -/
theorem lhs0_0 (j : S2000x128.Idx) (κ : dot_S2000x64_S64x128_S2000x128_1_0_0_1_n_n.contr.Idx) : (dot_S2000x64_S64x128_S2000x128_1_0_0_1_n_n.lhsIdx j κ 0).val = (j 0).val := by
  unfold DotDims.lhsIdx
  rw [dif_neg (show ¬(0 : Fin S2000x64.rank) ∈ dot_S2000x64_S64x128_S2000x128_1_0_0_1_n_n.lhsBatch by decide), dif_pos (show (0 : Fin S2000x64.rank) ∈ dot_S2000x64_S64x128_S2000x128_1_0_0_1_n_n.lhsNonContracting by decide)]
  rfl
/-- The left operand's column is the contraction index. -/
theorem lhs0_1 (j : S2000x128.Idx) (κ : dot_S2000x64_S64x128_S2000x128_1_0_0_1_n_n.contr.Idx) : (dot_S2000x64_S64x128_S2000x128_1_0_0_1_n_n.lhsIdx j κ 1).val = (κ ⟨0, by decide⟩).val :=
  dot_S2000x64_S64x128_S2000x128_1_0_0_1_n_n.lhsIdx_val_of_single rfl j κ
/-- The right operand's row is the contraction index. -/
theorem rhs0_0 (j : S2000x128.Idx) (κ : dot_S2000x64_S64x128_S2000x128_1_0_0_1_n_n.contr.Idx) : (dot_S2000x64_S64x128_S2000x128_1_0_0_1_n_n.rhsIdx j κ 0).val = (κ ⟨0, by decide⟩).val :=
  dot_S2000x64_S64x128_S2000x128_1_0_0_1_n_n.rhsIdx_val_of_single rfl j κ
/-- Output column `j 1` is the right operand's column. -/
theorem rhs0_1 (j : S2000x128.Idx) (κ : dot_S2000x64_S64x128_S2000x128_1_0_0_1_n_n.contr.Idx) : (dot_S2000x64_S64x128_S2000x128_1_0_0_1_n_n.rhsIdx j κ 1).val = (j 1).val := by
  unfold DotDims.rhsIdx
  rw [dif_neg (show ¬(1 : Fin S64x128.rank) ∈ dot_S2000x64_S64x128_S2000x128_1_0_0_1_n_n.rhsBatch by decide), dif_pos (show (1 : Fin S64x128.rank) ∈ dot_S2000x64_S64x128_S2000x128_1_0_0_1_n_n.rhsNonContracting by decide)]
  rfl

/-- The first body's matrix product into zero at `(p, q)`: the sum over the 64 input features. -/
theorem matmul0_apply (l : FVec Ideal S2000x64 .bf16) (r : FVec Ideal S64x128 .bf16) (p : Fin 2000) (q : Fin 128) :
    matmul dot_S2000x64_S64x128_S2000x128_1_0_0_1_n_n none l r (constant S2000x128 .f32 0x00000000#32) (ix2 p q)
      = ∑ k : Fin 64, l (ix2 p k) * r (ix2 k q) := by
  show FloatOps.matmul dot_S2000x64_S64x128_S2000x128_1_0_0_1_n_n none l r (constant S2000x128 .f32 0x00000000#32) (ix2 p q) = _
  rw [Ideal.matmul_constant_zero_apply, ← Equiv.sum_comp (contrEquiv1 dot_S2000x64_S64x128_S2000x128_1_0_0_1_n_n 64 rfl rfl).symm]
  refine Finset.sum_congr rfl fun k _ => ?_
  have hk := contrEquiv1_symm_val dot_S2000x64_S64x128_S2000x128_1_0_0_1_n_n 64 rfl rfl k
  have el : dot_S2000x64_S64x128_S2000x128_1_0_0_1_n_n.lhsIdx (ix2 p q) ((contrEquiv1 dot_S2000x64_S64x128_S2000x128_1_0_0_1_n_n 64 rfl rfl).symm k) = ix2 p k :=
    funext fun a => Fin.ext (by
      match a with
      | ⟨0, _⟩ => exact lhs0_0 _ _
      | ⟨1, _⟩ => exact (lhs0_1 _ _).trans hk)
  have er : dot_S2000x64_S64x128_S2000x128_1_0_0_1_n_n.rhsIdx (ix2 p q) ((contrEquiv1 dot_S2000x64_S64x128_S2000x128_1_0_0_1_n_n 64 rfl rfl).symm k) = ix2 k q :=
    funext fun a => Fin.ext (by
      match a with
      | ⟨0, _⟩ => exact (rhs0_0 _ _).trans hk
      | ⟨1, _⟩ => exact rhs0_1 _ _)
  rw [el, er]

/-- Output row `j 0` is the left operand's row. -/
theorem lhs1_0 (j : S2000x64.Idx) (κ : dot_S2000x128_S128x64_S2000x64_1_0_0_1_n_n.contr.Idx) : (dot_S2000x128_S128x64_S2000x64_1_0_0_1_n_n.lhsIdx j κ 0).val = (j 0).val := by
  unfold DotDims.lhsIdx
  rw [dif_neg (show ¬(0 : Fin S2000x128.rank) ∈ dot_S2000x128_S128x64_S2000x64_1_0_0_1_n_n.lhsBatch by decide), dif_pos (show (0 : Fin S2000x128.rank) ∈ dot_S2000x128_S128x64_S2000x64_1_0_0_1_n_n.lhsNonContracting by decide)]
  rfl
/-- The left operand's column is the contraction index. -/
theorem lhs1_1 (j : S2000x64.Idx) (κ : dot_S2000x128_S128x64_S2000x64_1_0_0_1_n_n.contr.Idx) : (dot_S2000x128_S128x64_S2000x64_1_0_0_1_n_n.lhsIdx j κ 1).val = (κ ⟨0, by decide⟩).val :=
  dot_S2000x128_S128x64_S2000x64_1_0_0_1_n_n.lhsIdx_val_of_single rfl j κ
/-- The right operand's row is the contraction index. -/
theorem rhs1_0 (j : S2000x64.Idx) (κ : dot_S2000x128_S128x64_S2000x64_1_0_0_1_n_n.contr.Idx) : (dot_S2000x128_S128x64_S2000x64_1_0_0_1_n_n.rhsIdx j κ 0).val = (κ ⟨0, by decide⟩).val :=
  dot_S2000x128_S128x64_S2000x64_1_0_0_1_n_n.rhsIdx_val_of_single rfl j κ
/-- Output column `j 1` is the right operand's column. -/
theorem rhs1_1 (j : S2000x64.Idx) (κ : dot_S2000x128_S128x64_S2000x64_1_0_0_1_n_n.contr.Idx) : (dot_S2000x128_S128x64_S2000x64_1_0_0_1_n_n.rhsIdx j κ 1).val = (j 1).val := by
  unfold DotDims.rhsIdx
  rw [dif_neg (show ¬(1 : Fin S128x64.rank) ∈ dot_S2000x128_S128x64_S2000x64_1_0_0_1_n_n.rhsBatch by decide), dif_pos (show (1 : Fin S128x64.rank) ∈ dot_S2000x128_S128x64_S2000x64_1_0_0_1_n_n.rhsNonContracting by decide)]
  rfl

/-- The second body's matrix product into zero at `(p, q)`: the sum over the 128 hidden features. -/
theorem matmul1_apply (l : FVec Ideal S2000x128 .bf16) (r : FVec Ideal S128x64 .bf16) (p : Fin 2000) (q : Fin 64) :
    matmul dot_S2000x128_S128x64_S2000x64_1_0_0_1_n_n none l r (constant S2000x64 .f32 0x00000000#32) (ix2 p q)
      = ∑ k : Fin 128, l (ix2 p k) * r (ix2 k q) := by
  show FloatOps.matmul dot_S2000x128_S128x64_S2000x64_1_0_0_1_n_n none l r (constant S2000x64 .f32 0x00000000#32) (ix2 p q) = _
  rw [Ideal.matmul_constant_zero_apply, ← Equiv.sum_comp (contrEquiv1 dot_S2000x128_S128x64_S2000x64_1_0_0_1_n_n 128 rfl rfl).symm]
  refine Finset.sum_congr rfl fun k _ => ?_
  have hk := contrEquiv1_symm_val dot_S2000x128_S128x64_S2000x64_1_0_0_1_n_n 128 rfl rfl k
  have el : dot_S2000x128_S128x64_S2000x64_1_0_0_1_n_n.lhsIdx (ix2 p q) ((contrEquiv1 dot_S2000x128_S128x64_S2000x64_1_0_0_1_n_n 128 rfl rfl).symm k) = ix2 p k :=
    funext fun a => Fin.ext (by
      match a with
      | ⟨0, _⟩ => exact lhs1_0 _ _
      | ⟨1, _⟩ => exact (lhs1_1 _ _).trans hk)
  have er : dot_S2000x128_S128x64_S2000x64_1_0_0_1_n_n.rhsIdx (ix2 p q) ((contrEquiv1 dot_S2000x128_S128x64_S2000x64_1_0_0_1_n_n 128 rfl rfl).symm k) = ix2 k q :=
    funext fun a => Fin.ext (by
      match a with
      | ⟨0, _⟩ => exact (rhs1_0 _ _).trans hk
      | ⟨1, _⟩ => exact rhs1_1 _ _)
  rw [el, er]

/-- Body 0 at `(p, q)`: row `p` of the block of `x` against column `q` of the weights, times the row's normaliser. -/
theorem pay0_apply (x0 : Vec Ideal S2000x64 .f32) (x1 : Vec Ideal S64x128 .f32) (x2 : Vec Ideal S2000x1 .f32)
    (p : Fin 2000) (q : Fin 128) :
    k0_pay1 (F := Ideal) x0 x1 x2 (ix2 p q) = (∑ k : Fin 64, x0 (ix2 p k) * x1 (ix2 k q)) * x2 (ix2 p (0 : Fin 1)) := by
  show mulf (F := Ideal) (matmul dot_S2000x64_S64x128_S2000x128_1_0_0_1_n_n none (truncf .bf16 (x0 : FVec Ideal S2000x64 .f32) _) (truncf .bf16 (x1 : FVec Ideal S64x128 .f32) _) (constant S2000x128 .f32 0x00000000#32))
      (broadcastTo S2000x128 (shapeCast (α := Ideal .f32) S2000x1 (x2 : FVec Ideal S2000x1 .f32) _) _) (ix2 p q) = _
  refine (mulf_apply _ _ _).trans ?_
  refine congrArg₂ (· * ·) (matmul0_apply _ _ p q) ?_
  exact (broadcastTo_a1_ab_apply _ _ p q).trans (congrFun (shapeCast_self _ _) _)

/-- The rectified combined row that body 1 multiplies into the second weights, at `(p, k)`. -/
theorem combine1_apply (v0 : FVec Ideal S2000x1 .f32) (v2 v4 : FVec Ideal S2000x128 .f32) (v9 : FVec Ideal S1x128 .f32)
    (h0 : S2000x1.ShapeCasts S2000x1) (h2 : S2000x128.ShapeCasts S2000x128) (h9 : S1x128.ShapeCasts S1x128)
    (b0 : S2000x1.Broadcasts S2000x128) (b9 : S1x128.Broadcasts S2000x128) (p : Fin 2000) (k : Fin 128) :
    maximumf (addf (mulf (broadcastTo S2000x128 (shapeCast S2000x1 v0 h0) b0) (addf (shapeCast S2000x128 v2 h2) (shapeCast S2000x128 v4 h2)))
        (broadcastTo S2000x128 (shapeCast S1x128 v9 h9) b9)) (broadcast S2000x128 (Scalar.ofBits (F := Ideal) .f32 0x00000000#32)) (ix2 p k)
      = max (v0 (ix2 p (0 : Fin 1)) * (v2 (ix2 p k) + v4 (ix2 p k)) + v9 (ix2 (0 : Fin 1) k)) 0 := by
  refine (maximumf_apply _ _ _).trans ?_
  refine congrArg₂ max ?_ Ideal.ofBits_zero_f32
  refine (addf_apply _ _ _).trans ?_
  refine congrArg₂ (· + ·) ?_ ?_
  · refine (mulf_apply _ _ _).trans ?_
    refine congrArg₂ (· * ·) ?_ ?_
    · exact (broadcastTo_a1_ab_apply _ _ p k).trans (congrFun (shapeCast_self _ _) _)
    · refine (addf_apply _ _ _).trans ?_
      exact congrArg₂ (· + ·) (congrFun (shapeCast_self _ _) _) (congrFun (shapeCast_self _ _) _)
  · exact (broadcastTo_1b_ab_apply _ _ p k).trans (congrFun (shapeCast_self _ _) _)

/-- Body 1 at `(p, q)`. -/
theorem pay1_apply (v0 : Vec Ideal S2000x1 .f32) (v2 v4 : Vec Ideal S2000x128 .f32) (v9 : Vec Ideal S1x128 .f32)
    (v16 : Vec Ideal S128x64 .f32) (v19 : Vec Ideal S2000x1 .f32) (p : Fin 2000) (q : Fin 64) :
    k1_pay1 (F := Ideal) v0 v2 v4 v9 v16 v19 (ix2 p q)
      = (∑ k : Fin 128, max (v0 (ix2 p (0 : Fin 1)) * (v2 (ix2 p k) + v4 (ix2 p k)) + v9 (ix2 (0 : Fin 1) k)) 0 * v16 (ix2 k q))
        * v19 (ix2 p (0 : Fin 1)) := by
  show mulf (F := Ideal) (matmul dot_S2000x128_S128x64_S2000x64_1_0_0_1_n_n none
        (truncf .bf16 (maximumf (addf (mulf (broadcastTo S2000x128 (shapeCast S2000x1 (v0 : FVec Ideal S2000x1 .f32) _) _) (addf (shapeCast S2000x128 (v2 : FVec Ideal S2000x128 .f32) _) (shapeCast S2000x128 (v4 : FVec Ideal S2000x128 .f32) _)))
          (broadcastTo S2000x128 (shapeCast S1x128 (v9 : FVec Ideal S1x128 .f32) _) _)) (broadcast S2000x128 (Scalar.ofBits (F := Ideal) .f32 0x00000000#32))) _)
        (truncf .bf16 (v16 : FVec Ideal S128x64 .f32) _) (constant S2000x64 .f32 0x00000000#32))
      (broadcastTo S2000x64 (shapeCast S2000x1 (v19 : FVec Ideal S2000x1 .f32) _) _) (ix2 p q) = _
  refine (mulf_apply _ _ _).trans ?_
  refine congrArg₂ (· * ·) ?_ ?_
  · refine (matmul1_apply _ _ p q).trans ?_
    refine Finset.sum_congr rfl fun k _ => ?_
    refine congrArg₂ (· * ·) ?_ rfl
    exact combine1_apply v0 v2 v4 v9 _ _ _ _ _ p k
  · exact (broadcastTo_a1_ab_apply _ _ p q).trans (congrFun (shapeCast_self _ _) _)

/-- Body 2 at `(p, q)`. -/
theorem pay2_apply (v0 : Vec Ideal S2000x1 .f32) (v2 v4 : Vec Ideal S2000x64 .f32) (v9 : Vec Ideal S1x64 .f32)
    (p : Fin 2000) (q : Fin 64) :
    k2_pay1 (F := Ideal) v0 v2 v4 v9 (ix2 p q)
      = v0 (ix2 p (0 : Fin 1)) * (v2 (ix2 p q) + v4 (ix2 p q)) + v9 (ix2 (0 : Fin 1) q) := by
  show addf (F := Ideal) (φ := .f32) (mulf (F := Ideal) (φ := .f32) (broadcastTo S2000x64 (shapeCast (α := Ideal .f32) S2000x1 (v0 : FVec Ideal S2000x1 .f32) _) _) (addf (F := Ideal) (φ := .f32) (shapeCast (α := Ideal .f32) S2000x64 (v2 : FVec Ideal S2000x64 .f32) _) (shapeCast (α := Ideal .f32) S2000x64 (v4 : FVec Ideal S2000x64 .f32) _)))
      (broadcastTo S2000x64 (shapeCast (α := Ideal .f32) S1x64 (v9 : FVec Ideal S1x64 .f32) _) _) (ix2 p q) = _
  refine (addf_apply _ _ _).trans ?_
  refine congrArg₂ (· + ·) ?_ ?_
  · refine (mulf_apply _ _ _).trans ?_
    refine congrArg₂ (· * ·) ?_ ?_
    · exact (broadcastTo_a1_ab_apply _ _ p q).trans (congrFun (shapeCast_self _ _) _)
    · refine (addf_apply _ _ _).trans ?_
      exact congrArg₂ (· + ·) (congrFun (shapeCast_self _ _) _) (congrFun (shapeCast_self _ _) _)
  · exact (broadcastTo_1b_ab_apply _ _ p q).trans (congrFun (shapeCast_self _ _) _)

end Cert.Gcn.Ker

end
-- ==== Proof.Region0.lean ====
/-
  The first region, block by block to the whole array. Grid point `t` of fifty stages rows `2000·t … 2000·t + 1999` of
  `x` and of the normaliser column, the whole weight matrix, and writes back the same rows of the two results. What
  it writes at row `p`, column `q` of its block is row `2000·t + p` of `x` against column `q` of the weights, times that
  row's normaliser: block `t` of ONE whole-array function. The fifty blocks tile the 100000 rows (row `r` is in block
  `r / 2000`), so both result arrays end holding that function; the narrower copy holds the same extended reals.
-/
import proofs.«152188_j84507776516794_2_alg».proof.Proof.Gen.KernelIdeal.Frame
import proofs.«152188_j84507776516794_2_alg».proof.Proof.Payload

set_option maxRecDepth 16384

noncomputable section

namespace Cert.Gcn.Ker

open Cert.KernelIdeal Cert.KernelIdeal.Gen
open Idealize.ShloMosaic Idealize.ShloMosaic.TcCoe Idealize.ShloMosaic.ValueIdx
open Idealize.SL.Sem
open Idealize.ShloMosaic.Pipeline (Dat Cfg Window)

/-- The zero offsets of a whole-block access, however spelt. -/
theorem hz2 : (![0, 0] : Fin 2 → Nat) = fun _ => 0 := funext fun a => by fin_cases a <;> rfl

/-- Every row of `X · W`, scaled by the row's entry of the column `D`. -/
def scaledRows (X : S100000x64.Idx → EReal) (W : S64x128.Idx → EReal) (D : S100000x1.Idx → EReal) : S100000x128.Idx → EReal :=
  fun i => (∑ k : Fin 64, X (ix2 (i 0) k) * W (ix2 k (i 1))) * D (ix2 (i 0) (0 : Fin 1))

/-- The printed index maps over the grid: the row-blocked windows sit at block row `t`, the weights at block `(0, 0)`. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

variable (V : (c : Dev nD) → (b : Ref sig .tc) → Buf (Elt Ideal) ((c : Thread nD τ).loc b))

/-- What point `t` writes back to result window 3 is block `t` of the scaled rows. -/
theorem flushed0_3_eq (c : Dev nD) (t : Fin cfg0.N) :
    (dat0 (F := Ideal) V c).flushed 3 t
      = ((cfg0.win 3).blk t).view.read (Elt Ideal) (scaledRows (V c main_arg0) (V c main_arg2) (V c main_v11)) := by
  show (cfg0.win 3).cut (grid0.coords t) ((dat0 V c).after 3 t) = _
  rw [after0_3]
  unfold out0_3
  rw [View.canon_unit_zero hz2]
  simp only [View.ld_unit_zero (S := S2000x64) hz2, View.ld_unit_zero (S := S64x128) hz2, View.ld_unit_zero (S := S2000x1) hz2]
  obtain ⟨e00, e01, e10, e11, e20, e21, e30, e31, e40, e41⟩ := idx_facts0 t
  funext j
  show k0_pay1 (iblk0 V c 0 t) (iblk0 V c 1 t) (iblk0 V c 2 t) j = scaledRows _ _ _ (((cfg0.win 3).blk t).view.emb j)
  refine ((congrArg (k0_pay1 (F := Ideal) (iblk0 V c 0 t) (iblk0 V c 1 t) (iblk0 V c 2 t)) (eq_ix2 (n0 := 2000) (n1 := 128) j)).trans
    (pay0_apply _ _ _ (j 0) (j 1))).trans ?_
  unfold scaledRows
  refine congrArg₂ (· * ·) (Finset.sum_congr rfl fun k _ => congrArg₂ (· * ·) ?_ ?_) ?_
  · show V c main_arg0 (((cfg0.win 0).blk t).view.emb (ix2 (j 0) k)) = V c main_arg0 (ix2 ((((cfg0.win 3).blk t).view.emb j) 0) k)
    refine congrArg (V c main_arg0) (funext fun a => Fin.ext ?_)
    match a with
    | ⟨0, _⟩ => show win0_0.index t (0 : Fin 2) * 2000 + 1 * (j 0).val = win0_3.index t (0 : Fin 2) * 2000 + 1 * (j 0).val; omega
    | ⟨1, _⟩ => show win0_0.index t (1 : Fin 2) * 64 + 1 * k.val = k.val; omega
  · show V c main_arg2 (((cfg0.win 1).blk t).view.emb (ix2 k (j 1))) = V c main_arg2 (ix2 k ((((cfg0.win 3).blk t).view.emb j) 1))
    refine congrArg (V c main_arg2) (funext fun a => Fin.ext ?_)
    match a with
    | ⟨0, _⟩ => show win0_1.index t (0 : Fin 2) * 64 + 1 * k.val = k.val; omega
    | ⟨1, _⟩ => show win0_1.index t (1 : Fin 2) * 128 + 1 * (j 1).val = win0_3.index t (1 : Fin 2) * 128 + 1 * (j 1).val; omega
  · show V c main_v11 (((cfg0.win 2).blk t).view.emb (ix2 (j 0) (0 : Fin 1))) = V c main_v11 (ix2 ((((cfg0.win 3).blk t).view.emb j) 0) (0 : Fin 1))
    refine congrArg (V c main_v11) (funext fun a => Fin.ext ?_)
    match a with
    | ⟨0, _⟩ => show win0_2.index t (0 : Fin 2) * 2000 + 1 * (j 0).val = win0_3.index t (0 : Fin 2) * 2000 + 1 * (j 0).val; omega
    | ⟨1, _⟩ => show win0_2.index t (1 : Fin 2) * 1 + 1 * 0 = 0; omega

/-- An index of the array is in point `t`'s block of window 3 iff each coordinate is in the block's range on its axis. -/
theorem mem_blk0_3 (t : Fin cfg0.N) (i : S100000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_v12_0).slice (win0_3.rect t)).set ↔ _
  rw [View.set_slice_whole, Rect.mem_set_unit]
  exact Iff.rfl

/-- Every index of the array is in some written-back block of window 3: row `r` is in block `r / 2000`. -/
theorem covered0_3 (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  obtain ⟨t, ht⟩ : ∃ t : Fin cfg0.N, t.val = (i 0).val / 2000 := ⟨⟨(i 0).val / 2000, by show (i 0).val / 2000 < 50; omega⟩, rfl⟩
  obtain ⟨-, -, -, -, -, -, e30, e31, e40, e41⟩ := idx_facts0 t
  refine ⟨t, flush0_3 t, ?_⟩
  rw [mem_blk0_3]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 128 ≤ (i 1).val ∧ (i 1).val < win0_3.index t (1 : Fin 2) * 128 + 128; omega

/-- Result window 3's array after the region: the scaled rows of what the region found. -/
theorem final0_3 (c : Dev nD) :
    (dat0 (F := Ideal) V c).arrAt 3 cfg0.N = scaledRows (V c main_arg0) (V c main_arg2) (V c main_v11) :=
  (dat0 (F := Ideal) V c).arrAt_eq_of_cover 3 _ (fun t _ => flushed0_3_eq V c t) covered0_3

/-- What point `t` writes back to result window 4 is block `t` of the scaled rows. -/
theorem flushed0_4_eq (c : Dev nD) (t : Fin cfg0.N) :
    (dat0 (F := Ideal) V c).flushed 4 t
      = ((cfg0.win 4).blk t).view.read (Elt Ideal) (scaledRows (V c main_arg0) (V c main_arg2) (V c main_v11)) := by
  show (cfg0.win 4).cut (grid0.coords t) ((dat0 V c).after 4 t) = _
  rw [after0_4]
  unfold out0_4
  rw [View.canon_unit_zero hz2]
  simp only [View.ld_unit_zero (S := S2000x64) hz2, View.ld_unit_zero (S := S64x128) hz2, View.ld_unit_zero (S := S2000x1) hz2]
  obtain ⟨e00, e01, e10, e11, e20, e21, e30, e31, e40, e41⟩ := idx_facts0 t
  funext j
  show k0_pay1 (iblk0 V c 0 t) (iblk0 V c 1 t) (iblk0 V c 2 t) j = scaledRows _ _ _ (((cfg0.win 4).blk t).view.emb j)
  refine ((congrArg (k0_pay1 (F := Ideal) (iblk0 V c 0 t) (iblk0 V c 1 t) (iblk0 V c 2 t)) (eq_ix2 (n0 := 2000) (n1 := 128) j)).trans
    (pay0_apply _ _ _ (j 0) (j 1))).trans ?_
  unfold scaledRows
  refine congrArg₂ (· * ·) (Finset.sum_congr rfl fun k _ => congrArg₂ (· * ·) ?_ ?_) ?_
  · show V c main_arg0 (((cfg0.win 0).blk t).view.emb (ix2 (j 0) k)) = V c main_arg0 (ix2 ((((cfg0.win 4).blk t).view.emb j) 0) k)
    refine congrArg (V c main_arg0) (funext fun a => Fin.ext ?_)
    match a with
    | ⟨0, _⟩ => show win0_0.index t (0 : Fin 2) * 2000 + 1 * (j 0).val = win0_4.index t (0 : Fin 2) * 2000 + 1 * (j 0).val; omega
    | ⟨1, _⟩ => show win0_0.index t (1 : Fin 2) * 64 + 1 * k.val = k.val; omega
  · show V c main_arg2 (((cfg0.win 1).blk t).view.emb (ix2 k (j 1))) = V c main_arg2 (ix2 k ((((cfg0.win 4).blk t).view.emb j) 1))
    refine congrArg (V c main_arg2) (funext fun a => Fin.ext ?_)
    match a with
    | ⟨0, _⟩ => show win0_1.index t (0 : Fin 2) * 64 + 1 * k.val = k.val; omega
    | ⟨1, _⟩ => show win0_1.index t (1 : Fin 2) * 128 + 1 * (j 1).val = win0_4.index t (1 : Fin 2) * 128 + 1 * (j 1).val; omega
  · show V c main_v11 (((cfg0.win 2).blk t).view.emb (ix2 (j 0) (0 : Fin 1))) = V c main_v11 (ix2 ((((cfg0.win 4).blk t).view.emb j) 0) (0 : Fin 1))
    refine congrArg (V c main_v11) (funext fun a => Fin.ext ?_)
    match a with
    | ⟨0, _⟩ => show win0_2.index t (0 : Fin 2) * 2000 + 1 * (j 0).val = win0_4.index t (0 : Fin 2) * 2000 + 1 * (j 0).val; omega
    | ⟨1, _⟩ => show win0_2.index t (1 : Fin 2) * 1 + 1 * 0 = 0; omega

/-- An index of the array is in point `t`'s block of window 4 iff each coordinate is in the block's range on its axis. -/
theorem mem_blk0_4 (t : Fin cfg0.N) (i : S100000x128.Idx) :
    i ∈ ((cfg0.win 4).blk t).view.set ↔ ∀ a : Fin 2, win0_4.index t a * S2000x128.size a ≤ (i a).val ∧ (i a).val < win0_4.index t a * S2000x128.size a + S2000x128.size a := by
  show i ∈ ((View.whole main_v12_1).slice (win0_4.rect t)).set ↔ _
  rw [View.set_slice_whole, Rect.mem_set_unit]
  exact Iff.rfl

/-- Every index of the array is in some written-back block of window 4: row `r` is in block `r / 2000`. -/
theorem covered0_4 (i : S100000x128.Idx) : ∃ t : Fin cfg0.N, (cfg0.win 4).flush t = true ∧ i ∈ ((cfg0.win 4).blk t).view.set := by
  have hi0 : (i 0).val < 100000 := (i 0).isLt
  have hi1 : (i 1).val < 128 := (i 1).isLt
  obtain ⟨t, ht⟩ : ∃ t : Fin cfg0.N, t.val = (i 0).val / 2000 := ⟨⟨(i 0).val / 2000, by show (i 0).val / 2000 < 50; omega⟩, rfl⟩
  obtain ⟨-, -, -, -, -, -, e30, e31, e40, e41⟩ := idx_facts0 t
  refine ⟨t, flush0_4 t, ?_⟩
  rw [mem_blk0_4]
  intro a
  match a with
  | ⟨0, _⟩ => show win0_4.index t (0 : Fin 2) * 2000 ≤ (i 0).val ∧ (i 0).val < win0_4.index t (0 : Fin 2) * 2000 + 2000; omega
  | ⟨1, _⟩ => show win0_4.index t (1 : Fin 2) * 128 ≤ (i 1).val ∧ (i 1).val < win0_4.index t (1 : Fin 2) * 128 + 128; omega

/-- Result window 4's array after the region: the scaled rows of what the region found. -/
theorem final0_4 (c : Dev nD) :
    (dat0 (F := Ideal) V c).arrAt 4 cfg0.N = scaledRows (V c main_arg0) (V c main_arg2) (V c main_v11) :=
  (dat0 (F := Ideal) V c).arrAt_eq_of_cover 4 _ (fun t _ => flushed0_4_eq V c t) covered0_4

end Cert.Gcn.Ker

end
-- ==== Proof.Region1.lean ====
/-
  The second region, block by block to the whole array. Grid point `t` stages rows `2000·t …` of the first layer's
  scaled rows, of the scattered aggregate and of the normaliser column, the bias row and the second weight matrix. At
  row `r` it forms the first layer's output — normaliser times (aggregate + scaled row) plus bias, clamped below at
  zero —, multiplies that row into the second weights and scales the result by the row's normaliser again. The fifty
  blocks tile the rows, so both result arrays end holding that one function of what the region found.
-/
import proofs.«152188_j84507776516794_2_alg».proof.Proof.Gen.KernelIdeal.Frame
import proofs.«152188_j84507776516794_2_alg».proof.Proof.Payload
import proofs.«152188_j84507776516794_2_alg».proof.Proof.Region0

set_option maxRecDepth 16384

noncomputable section

namespace Cert.Gcn.Ker

open Cert.KernelIdeal Cert.KernelIdeal.Gen
open Idealize.ShloMosaic Idealize.ShloMosaic.TcCoe Idealize.ShloMosaic.ValueIdx
open Idealize.SL.Sem
open Idealize.ShloMosaic.Pipeline (Dat Cfg Window)

/-- The second layer's scaled rows: the rectified first-layer output of each row, times `W`, scaled by the row's `D`. -/
def layer2Rows (HS AGG : S100000x128.Idx → EReal) (D : S100000x1.Idx → EReal) (B : S1x128.Idx → EReal) (W : S128x64.Idx → EReal) :
    S100000x64.Idx → EReal :=
  fun i => (∑ k : Fin 128, max (D (ix2 (i 0) (0 : Fin 1)) * (AGG (ix2 (i 0) k) + HS (ix2 (i 0) k)) + B (ix2 (0 : Fin 1) k)) 0 * W (ix2 k (i 1)))
    * D (ix2 (i 0) (0 : Fin 1))

/-- The printed index maps over the grid: the row-blocked windows sit at block row `t`, the bias and the weights at block `(0, 0)`. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ win1_6.index t (0 : Fin 2) = t.val ∧ win1_6.index t (1 : Fin 2) = 0 :=
  (by decide +kernel : ∀ t : Fin grid1.N, _)

variable (V : (c : Dev nD) → (b : Ref sig .tc) → Buf (Elt Ideal) ((c : Thread nD τ).loc b))

/-- What point `t` writes back to result window 5 is block `t` of the second layer's scaled rows. -/
theorem flushed1_5_eq (c : Dev nD) (t : Fin cfg1.N) :
    (dat1 (F := Ideal) V c).flushed 5 t
      = ((cfg1.win 5).blk t).view.read (Elt Ideal)
          (layer2Rows (V c main_v12_0) (V c main_v23) (V c main_v11) (V c main_v24) (V c main_arg4)) := by
  show (cfg1.win 5).cut (grid1.coords t) ((dat1 V c).after 5 t) = _
  rw [after1_5]
  unfold out1_5
  rw [View.canon_unit_zero hz2]
  simp only [View.ld_unit_zero (S := S2000x128) hz2, View.ld_unit_zero (S := S2000x1) hz2, View.ld_unit_zero (S := S1x128) hz2, View.ld_unit_zero (S := S128x64) hz2]
  obtain ⟨e00, e01, e10, e11, e20, e21, e30, e31, e40, e41, e50, e51, e60, e61⟩ := idx_facts1 t
  funext j
  show k1_pay1 (iblk1 V c 2 t) (iblk1 V c 1 t) (iblk1 V c 0 t) (iblk1 V c 3 t) (iblk1 V c 4 t) (iblk1 V c 2 t) j = layer2Rows _ _ _ _ _ (((cfg1.win 5).blk t).view.emb j)
  refine ((congrArg (k1_pay1 (F := Ideal) (iblk1 V c 2 t) (iblk1 V c 1 t) (iblk1 V c 0 t) (iblk1 V c 3 t) (iblk1 V c 4 t) (iblk1 V c 2 t)) (eq_ix2 (n0 := 2000) (n1 := 64) j)).trans
    (pay1_apply _ _ _ _ _ _ (j 0) (j 1))).trans ?_
  unfold layer2Rows
  refine congrArg₂ (· * ·) (Finset.sum_congr rfl fun k _ => congrArg₂ (· * ·) (congrArg₂ max (congrArg₂ (· + ·) (congrArg₂ (· * ·) ?_ (congrArg₂ (· + ·) ?_ ?_)) ?_) rfl) ?_) ?_
  ·
    show V c main_v11 (((cfg1.win 2).blk t).view.emb (ix2 (j 0) (0 : Fin 1))) = V c main_v11 (ix2 ((((cfg1.win 5).blk t).view.emb j) 0) (0 : Fin 1))
    refine congrArg (V c main_v11) (funext fun a => Fin.ext ?_)
    match a with
    | ⟨0, _⟩ => show win1_2.index t (0 : Fin 2) * 2000 + 1 * (j 0).val = win1_5.index t (0 : Fin 2) * 2000 + 1 * (j 0).val; omega
    | ⟨1, _⟩ => show win1_2.index t (1 : Fin 2) * 1 + 1 * 0 = 0; omega
  ·
    show V c main_v23 (((cfg1.win 1).blk t).view.emb (ix2 (j 0) k)) = V c main_v23 (ix2 ((((cfg1.win 5).blk t).view.emb j) 0) k)
    refine congrArg (V c main_v23) (funext fun a => Fin.ext ?_)
    match a with
    | ⟨0, _⟩ => show win1_1.index t (0 : Fin 2) * 2000 + 1 * (j 0).val = win1_5.index t (0 : Fin 2) * 2000 + 1 * (j 0).val; omega
    | ⟨1, _⟩ => show win1_1.index t (1 : Fin 2) * 128 + 1 * k.val = k.val; omega
  ·
    show V c main_v12_0 (((cfg1.win 0).blk t).view.emb (ix2 (j 0) k)) = V c main_v12_0 (ix2 ((((cfg1.win 5).blk t).view.emb j) 0) k)
    refine congrArg (V c main_v12_0) (funext fun a => Fin.ext ?_)
    match a with
    | ⟨0, _⟩ => show win1_0.index t (0 : Fin 2) * 2000 + 1 * (j 0).val = win1_5.index t (0 : Fin 2) * 2000 + 1 * (j 0).val; omega
    | ⟨1, _⟩ => show win1_0.index t (1 : Fin 2) * 128 + 1 * k.val = k.val; omega
  ·
    show V c main_v24 (((cfg1.win 3).blk t).view.emb (ix2 (0 : Fin 1) k)) = V c main_v24 (ix2 (0 : Fin 1) k)
    refine congrArg (V c main_v24) (funext fun a => Fin.ext ?_)
    match a with
    | ⟨0, _⟩ => show win1_3.index t (0 : Fin 2) * 1 + 1 * 0 = 0; omega
    | ⟨1, _⟩ => show win1_3.index t (1 : Fin 2) * 128 + 1 * k.val = k.val; omega
  ·
    show V c main_arg4 (((cfg1.win 4).blk t).view.emb (ix2 k (j 1))) = V c main_arg4 (ix2 k ((((cfg1.win 5).blk t).view.emb j) 1))
    refine congrArg (V c main_arg4) (funext fun a => Fin.ext ?_)
    match a with
    | ⟨0, _⟩ => show win1_4.index t (0 : Fin 2) * 128 + 1 * k.val = k.val; omega
    | ⟨1, _⟩ => show win1_4.index t (1 : Fin 2) * 64 + 1 * (j 1).val = win1_5.index t (1 : Fin 2) * 64 + 1 * (j 1).val; omega
  ·
    show V c main_v11 (((cfg1.win 2).blk t).view.emb (ix2 (j 0) (0 : Fin 1))) = V c main_v11 (ix2 ((((cfg1.win 5).blk t).view.emb j) 0) (0 : Fin 1))
    refine congrArg (V c main_v11) (funext fun a => Fin.ext ?_)
    match a with
    | ⟨0, _⟩ => show win1_2.index t (0 : Fin 2) * 2000 + 1 * (j 0).val = win1_5.index t (0 : Fin 2) * 2000 + 1 * (j 0).val; omega
    | ⟨1, _⟩ => show win1_2.index t (1 : Fin 2) * 1 + 1 * 0 = 0; omega

/-- An index of the array is in point `t`'s block of window 5 iff each coordinate is in the block's range on its axis. -/
theorem mem_blk1_5 (t : Fin cfg1.N) (i : S100000x64.Idx) :
    i ∈ ((cfg1.win 5).blk t).view.set ↔ ∀ a : Fin 2, win1_5.index t a * S2000x64.size a ≤ (i a).val ∧ (i a).val < win1_5.index t a * S2000x64.size a + S2000x64.size a := by
  show i ∈ ((View.whole main_v25_0).slice (win1_5.rect t)).set ↔ _
  rw [View.set_slice_whole, Rect.mem_set_unit]
  exact Iff.rfl

/-- Every index of the array is in some written-back block of window 5: row `r` is in block `r / 2000`. -/
theorem covered1_5 (i : S100000x64.Idx) : ∃ t : Fin cfg1.N, (cfg1.win 5).flush t = true ∧ i ∈ ((cfg1.win 5).blk t).view.set := by
  have hi0 : (i 0).val < 100000 := (i 0).isLt
  have hi1 : (i 1).val < 64 := (i 1).isLt
  obtain ⟨t, ht⟩ : ∃ t : Fin cfg1.N, t.val = (i 0).val / 2000 := ⟨⟨(i 0).val / 2000, by show (i 0).val / 2000 < 50; omega⟩, rfl⟩
  obtain ⟨-, -, -, -, -, -, -, -, -, -, e50, e51, e60, e61⟩ := idx_facts1 t
  refine ⟨t, flush1_5 t, ?_⟩
  rw [mem_blk1_5]
  intro a
  match a with
  | ⟨0, _⟩ => show win1_5.index t (0 : Fin 2) * 2000 ≤ (i 0).val ∧ (i 0).val < win1_5.index t (0 : Fin 2) * 2000 + 2000; omega
  | ⟨1, _⟩ => show win1_5.index t (1 : Fin 2) * 64 ≤ (i 1).val ∧ (i 1).val < win1_5.index t (1 : Fin 2) * 64 + 64; omega

/-- Result window 5's array after the region. -/
theorem final1_5 (c : Dev nD) :
    (dat1 (F := Ideal) V c).arrAt 5 cfg1.N
      = layer2Rows (V c main_v12_0) (V c main_v23) (V c main_v11) (V c main_v24) (V c main_arg4) :=
  (dat1 (F := Ideal) V c).arrAt_eq_of_cover 5 _ (fun t _ => flushed1_5_eq V c t) covered1_5

/-- What point `t` writes back to result window 6 is block `t` of the second layer's scaled rows. -/
theorem flushed1_6_eq (c : Dev nD) (t : Fin cfg1.N) :
    (dat1 (F := Ideal) V c).flushed 6 t
      = ((cfg1.win 6).blk t).view.read (Elt Ideal)
          (layer2Rows (V c main_v12_0) (V c main_v23) (V c main_v11) (V c main_v24) (V c main_arg4)) := by
  show (cfg1.win 6).cut (grid1.coords t) ((dat1 V c).after 6 t) = _
  rw [after1_6]
  unfold out1_6
  rw [View.canon_unit_zero hz2]
  simp only [View.ld_unit_zero (S := S2000x128) hz2, View.ld_unit_zero (S := S2000x1) hz2, View.ld_unit_zero (S := S1x128) hz2, View.ld_unit_zero (S := S128x64) hz2]
  obtain ⟨e00, e01, e10, e11, e20, e21, e30, e31, e40, e41, e50, e51, e60, e61⟩ := idx_facts1 t
  funext j
  show k1_pay1 (iblk1 V c 2 t) (iblk1 V c 1 t) (iblk1 V c 0 t) (iblk1 V c 3 t) (iblk1 V c 4 t) (iblk1 V c 2 t) j = layer2Rows _ _ _ _ _ (((cfg1.win 6).blk t).view.emb j)
  refine ((congrArg (k1_pay1 (F := Ideal) (iblk1 V c 2 t) (iblk1 V c 1 t) (iblk1 V c 0 t) (iblk1 V c 3 t) (iblk1 V c 4 t) (iblk1 V c 2 t)) (eq_ix2 (n0 := 2000) (n1 := 64) j)).trans
    (pay1_apply _ _ _ _ _ _ (j 0) (j 1))).trans ?_
  unfold layer2Rows
  refine congrArg₂ (· * ·) (Finset.sum_congr rfl fun k _ => congrArg₂ (· * ·) (congrArg₂ max (congrArg₂ (· + ·) (congrArg₂ (· * ·) ?_ (congrArg₂ (· + ·) ?_ ?_)) ?_) rfl) ?_) ?_
  ·
    show V c main_v11 (((cfg1.win 2).blk t).view.emb (ix2 (j 0) (0 : Fin 1))) = V c main_v11 (ix2 ((((cfg1.win 6).blk t).view.emb j) 0) (0 : Fin 1))
    refine congrArg (V c main_v11) (funext fun a => Fin.ext ?_)
    match a with
    | ⟨0, _⟩ => show win1_2.index t (0 : Fin 2) * 2000 + 1 * (j 0).val = win1_6.index t (0 : Fin 2) * 2000 + 1 * (j 0).val; omega
    | ⟨1, _⟩ => show win1_2.index t (1 : Fin 2) * 1 + 1 * 0 = 0; omega
  ·
    show V c main_v23 (((cfg1.win 1).blk t).view.emb (ix2 (j 0) k)) = V c main_v23 (ix2 ((((cfg1.win 6).blk t).view.emb j) 0) k)
    refine congrArg (V c main_v23) (funext fun a => Fin.ext ?_)
    match a with
    | ⟨0, _⟩ => show win1_1.index t (0 : Fin 2) * 2000 + 1 * (j 0).val = win1_6.index t (0 : Fin 2) * 2000 + 1 * (j 0).val; omega
    | ⟨1, _⟩ => show win1_1.index t (1 : Fin 2) * 128 + 1 * k.val = k.val; omega
  ·
    show V c main_v12_0 (((cfg1.win 0).blk t).view.emb (ix2 (j 0) k)) = V c main_v12_0 (ix2 ((((cfg1.win 6).blk t).view.emb j) 0) k)
    refine congrArg (V c main_v12_0) (funext fun a => Fin.ext ?_)
    match a with
    | ⟨0, _⟩ => show win1_0.index t (0 : Fin 2) * 2000 + 1 * (j 0).val = win1_6.index t (0 : Fin 2) * 2000 + 1 * (j 0).val; omega
    | ⟨1, _⟩ => show win1_0.index t (1 : Fin 2) * 128 + 1 * k.val = k.val; omega
  ·
    show V c main_v24 (((cfg1.win 3).blk t).view.emb (ix2 (0 : Fin 1) k)) = V c main_v24 (ix2 (0 : Fin 1) k)
    refine congrArg (V c main_v24) (funext fun a => Fin.ext ?_)
    match a with
    | ⟨0, _⟩ => show win1_3.index t (0 : Fin 2) * 1 + 1 * 0 = 0; omega
    | ⟨1, _⟩ => show win1_3.index t (1 : Fin 2) * 128 + 1 * k.val = k.val; omega
  ·
    show V c main_arg4 (((cfg1.win 4).blk t).view.emb (ix2 k (j 1))) = V c main_arg4 (ix2 k ((((cfg1.win 6).blk t).view.emb j) 1))
    refine congrArg (V c main_arg4) (funext fun a => Fin.ext ?_)
    match a with
    | ⟨0, _⟩ => show win1_4.index t (0 : Fin 2) * 128 + 1 * k.val = k.val; omega
    | ⟨1, _⟩ => show win1_4.index t (1 : Fin 2) * 64 + 1 * (j 1).val = win1_6.index t (1 : Fin 2) * 64 + 1 * (j 1).val; omega
  ·
    show V c main_v11 (((cfg1.win 2).blk t).view.emb (ix2 (j 0) (0 : Fin 1))) = V c main_v11 (ix2 ((((cfg1.win 6).blk t).view.emb j) 0) (0 : Fin 1))
    refine congrArg (V c main_v11) (funext fun a => Fin.ext ?_)
    match a with
    | ⟨0, _⟩ => show win1_2.index t (0 : Fin 2) * 2000 + 1 * (j 0).val = win1_6.index t (0 : Fin 2) * 2000 + 1 * (j 0).val; omega
    | ⟨1, _⟩ => show win1_2.index t (1 : Fin 2) * 1 + 1 * 0 = 0; omega

/-- An index of the array is in point `t`'s block of window 6 iff each coordinate is in the block's range on its axis. -/
theorem mem_blk1_6 (t : Fin cfg1.N) (i : S100000x64.Idx) :
    i ∈ ((cfg1.win 6).blk t).view.set ↔ ∀ a : Fin 2, win1_6.index t a * S2000x64.size a ≤ (i a).val ∧ (i a).val < win1_6.index t a * S2000x64.size a + S2000x64.size a := by
  show i ∈ ((View.whole main_v25_1).slice (win1_6.rect t)).set ↔ _
  rw [View.set_slice_whole, Rect.mem_set_unit]
  exact Iff.rfl

/-- Every index of the array is in some written-back block of window 6: row `r` is in block `r / 2000`. -/
theorem covered1_6 (i : S100000x64.Idx) : ∃ t : Fin cfg1.N, (cfg1.win 6).flush t = true ∧ i ∈ ((cfg1.win 6).blk t).view.set := by
  have hi0 : (i 0).val < 100000 := (i 0).isLt
  have hi1 : (i 1).val < 64 := (i 1).isLt
  obtain ⟨t, ht⟩ : ∃ t : Fin cfg1.N, t.val = (i 0).val / 2000 := ⟨⟨(i 0).val / 2000, by show (i 0).val / 2000 < 50; omega⟩, rfl⟩
  obtain ⟨-, -, -, -, -, -, -, -, -, -, e50, e51, e60, e61⟩ := idx_facts1 t
  refine ⟨t, flush1_6 t, ?_⟩
  rw [mem_blk1_6]
  intro a
  match a with
  | ⟨0, _⟩ => show win1_6.index t (0 : Fin 2) * 2000 ≤ (i 0).val ∧ (i 0).val < win1_6.index t (0 : Fin 2) * 2000 + 2000; omega
  | ⟨1, _⟩ => show win1_6.index t (1 : Fin 2) * 64 ≤ (i 1).val ∧ (i 1).val < win1_6.index t (1 : Fin 2) * 64 + 64; omega

/-- Result window 6's array after the region. -/
theorem final1_6 (c : Dev nD) :
    (dat1 (F := Ideal) V c).arrAt 6 cfg1.N
      = layer2Rows (V c main_v12_0) (V c main_v23) (V c main_v11) (V c main_v24) (V c main_arg4) :=
  (dat1 (F := Ideal) V c).arrAt_eq_of_cover 6 _ (fun t _ => flushed1_6_eq V c t) covered1_6

end Cert.Gcn.Ker

end
-- ==== Proof.Region2.lean ====
/-
  The third region, block by block to the whole array. Grid point `t` stages rows `2000·t …` of the second layer's
  scaled rows, of their scattered aggregate and of the normaliser column, and the bias row, and writes back
  normaliser times (aggregate + scaled row) plus bias. The fifty blocks tile the rows: the result array ends holding
  that one function of what the region found.
-/
import proofs.«152188_j84507776516794_2_alg».proof.Proof.Gen.KernelIdeal.Frame
import proofs.«152188_j84507776516794_2_alg».proof.Proof.Payload
import proofs.«152188_j84507776516794_2_alg».proof.Proof.Region0

set_option maxRecDepth 16384

noncomputable section

namespace Cert.Gcn.Ker

open Cert.KernelIdeal Cert.KernelIdeal.Gen
open Idealize.ShloMosaic Idealize.ShloMosaic.TcCoe Idealize.ShloMosaic.ValueIdx
open Idealize.SL.Sem
open Idealize.ShloMosaic.Pipeline (Dat Cfg Window)

/-- A layer's output from its scaled rows `HS`, their aggregate `AGG`, the normaliser column `D` and the bias row `B`. -/
def combineRows (HS AGG : S100000x64.Idx → EReal) (D : S100000x1.Idx → EReal) (B : S1x64.Idx → EReal) : S100000x64.Idx → EReal :=
  fun i => D (ix2 (i 0) (0 : Fin 1)) * (AGG (ix2 (i 0) (i 1)) + HS (ix2 (i 0) (i 1))) + B (ix2 (0 : Fin 1) (i 1))

/-- The printed index maps over the grid: the row-blocked windows sit at block row `t`, the bias at block `(0, 0)`. -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

variable (V : (c : Dev nD) → (b : Ref sig .tc) → Buf (Elt Ideal) ((c : Thread nD τ).loc b))

/-- What point `t` writes back is block `t` of the layer's output. -/
theorem flushed2_4_eq (c : Dev nD) (t : Fin cfg2.N) :
    (dat2 (F := Ideal) V c).flushed 4 t
      = ((cfg2.win 4).blk t).view.read (Elt Ideal) (combineRows (V c main_v25_0) (V c main_v36) (V c main_v11) (V c main_v37)) := by
  show (cfg2.win 4).cut (grid2.coords t) ((dat2 V c).after 4 t) = _
  rw [after2_4]
  unfold out2_4
  rw [View.canon_unit_zero hz2]
  simp only [View.ld_unit_zero (S := S2000x64) hz2, View.ld_unit_zero (S := S2000x1) hz2, View.ld_unit_zero (S := S1x64) hz2]
  obtain ⟨e00, e01, e10, e11, e20, e21, e30, e31, e40, e41⟩ := idx_facts2 t
  funext j
  show k2_pay1 (iblk2 V c 2 t) (iblk2 V c 1 t) (iblk2 V c 0 t) (iblk2 V c 3 t) j = combineRows _ _ _ _ (((cfg2.win 4).blk t).view.emb j)
  refine ((congrArg (k2_pay1 (F := Ideal) (iblk2 V c 2 t) (iblk2 V c 1 t) (iblk2 V c 0 t) (iblk2 V c 3 t)) (eq_ix2 (n0 := 2000) (n1 := 64) j)).trans
    (pay2_apply _ _ _ _ (j 0) (j 1))).trans ?_
  unfold combineRows
  refine congrArg₂ (· + ·) (congrArg₂ (· * ·) ?_ (congrArg₂ (· + ·) ?_ ?_)) ?_
  ·
    show V c main_v11 (((cfg2.win 2).blk t).view.emb (ix2 (j 0) (0 : Fin 1))) = V c main_v11 (ix2 ((((cfg2.win 4).blk t).view.emb j) 0) (0 : Fin 1))
    refine congrArg (V c main_v11) (funext fun a => Fin.ext ?_)
    match a with
    | ⟨0, _⟩ => show win2_2.index t (0 : Fin 2) * 2000 + 1 * (j 0).val = win2_4.index t (0 : Fin 2) * 2000 + 1 * (j 0).val; omega
    | ⟨1, _⟩ => show win2_2.index t (1 : Fin 2) * 1 + 1 * 0 = 0; omega
  ·
    show V c main_v36 (((cfg2.win 1).blk t).view.emb (ix2 (j 0) (j 1))) = V c main_v36 (ix2 ((((cfg2.win 4).blk t).view.emb j) 0) ((((cfg2.win 4).blk t).view.emb j) 1))
    refine congrArg (V c main_v36) (funext fun a => Fin.ext ?_)
    match a with
    | ⟨0, _⟩ => show win2_1.index t (0 : Fin 2) * 2000 + 1 * (j 0).val = win2_4.index t (0 : Fin 2) * 2000 + 1 * (j 0).val; omega
    | ⟨1, _⟩ => show win2_1.index t (1 : Fin 2) * 64 + 1 * (j 1).val = win2_4.index t (1 : Fin 2) * 64 + 1 * (j 1).val; omega
  ·
    show V c main_v25_0 (((cfg2.win 0).blk t).view.emb (ix2 (j 0) (j 1))) = V c main_v25_0 (ix2 ((((cfg2.win 4).blk t).view.emb j) 0) ((((cfg2.win 4).blk t).view.emb j) 1))
    refine congrArg (V c main_v25_0) (funext fun a => Fin.ext ?_)
    match a with
    | ⟨0, _⟩ => show win2_0.index t (0 : Fin 2) * 2000 + 1 * (j 0).val = win2_4.index t (0 : Fin 2) * 2000 + 1 * (j 0).val; omega
    | ⟨1, _⟩ => show win2_0.index t (1 : Fin 2) * 64 + 1 * (j 1).val = win2_4.index t (1 : Fin 2) * 64 + 1 * (j 1).val; omega
  ·
    show V c main_v37 (((cfg2.win 3).blk t).view.emb (ix2 (0 : Fin 1) (j 1))) = V c main_v37 (ix2 (0 : Fin 1) ((((cfg2.win 4).blk t).view.emb j) 1))
    refine congrArg (V c main_v37) (funext fun a => Fin.ext ?_)
    match a with
    | ⟨0, _⟩ => show win2_3.index t (0 : Fin 2) * 1 + 1 * 0 = 0; omega
    | ⟨1, _⟩ => show win2_3.index t (1 : Fin 2) * 64 + 1 * (j 1).val = win2_4.index t (1 : Fin 2) * 64 + 1 * (j 1).val; omega

/-- An index of the array is in point `t`'s block iff each coordinate is in the block's range on its axis. -/
theorem mem_blk2_4 (t : Fin cfg2.N) (i : S100000x64.Idx) :
    i ∈ ((cfg2.win 4).blk t).view.set ↔ ∀ a : Fin 2, win2_4.index t a * S2000x64.size a ≤ (i a).val ∧ (i a).val < win2_4.index t a * S2000x64.size a + S2000x64.size a := by
  show i ∈ ((View.whole main_v38).slice (win2_4.rect t)).set ↔ _
  rw [View.set_slice_whole, Rect.mem_set_unit]
  exact Iff.rfl

/-- Every index of the array is in some written-back block: row `r` is in block `r / 2000`. -/
theorem covered2_4 (i : S100000x64.Idx) : ∃ t : Fin cfg2.N, (cfg2.win 4).flush t = true ∧ i ∈ ((cfg2.win 4).blk t).view.set := by
  have hi0 : (i 0).val < 100000 := (i 0).isLt
  have hi1 : (i 1).val < 64 := (i 1).isLt
  obtain ⟨t, ht⟩ : ∃ t : Fin cfg2.N, t.val = (i 0).val / 2000 := ⟨⟨(i 0).val / 2000, by show (i 0).val / 2000 < 50; omega⟩, rfl⟩
  obtain ⟨-, -, -, -, -, -, -, -, e40, e41⟩ := idx_facts2 t
  refine ⟨t, flush2_4 t, ?_⟩
  rw [mem_blk2_4]
  intro a
  match a with
  | ⟨0, _⟩ => show win2_4.index t (0 : Fin 2) * 2000 ≤ (i 0).val ∧ (i 0).val < win2_4.index t (0 : Fin 2) * 2000 + 2000; omega
  | ⟨1, _⟩ => show win2_4.index t (1 : Fin 2) * 64 ≤ (i 1).val ∧ (i 1).val < win2_4.index t (1 : Fin 2) * 64 + 64; omega

/-- The result array after the region. -/
theorem final2_4 (c : Dev nD) :
    (dat2 (F := Ideal) V c).arrAt 4 cfg2.N = combineRows (V c main_v25_0) (V c main_v36) (V c main_v11) (V c main_v37) :=
  (dat2 (F := Ideal) V c).arrAt_eq_of_cover 4 _ (fun t _ => flushed2_4_eq V c t) covered2_4

end Cert.Gcn.Ker

end
-- ==== Proof.GraphDims.lean ====
/-
  The shapes and the dimension records of a graph convolution over 100000 nodes and 1600000 edges, shared by the
  kernel's side and the reference's side: a node table has one row per node, an edge array one entry per edge; a
  row gather reads a table's row at each edge's (signed, clamped) start index, and a row scatter adds each edge's
  row into the table row its (signed, unclamped) start index names, dropping an edge whose index is outside.
-/
import Idealize.ShloMosaic.PureOps.Ideal
import Idealize.ShloMosaic.PureOps.Contract
import Idealize.ShloMosaic.Lib.ValueIdx

namespace Cert.Gcn

open Idealize.ShloMosaic

/-- One entry per node. -/
abbrev SN : Shape := ⟨1, ![100000]⟩
/-- One entry per edge. -/
abbrev SE : Shape := ⟨1, ![1600000]⟩
/-- One start index per edge, as a column. -/
abbrev SE1 : Shape := ⟨2, ![1600000, 1]⟩
/-- Node tables of 128 and of 64 features, and the per-edge rows gathered from them. -/
abbrev SN128 : Shape := ⟨2, ![100000, 128]⟩
abbrev SE128 : Shape := ⟨2, ![1600000, 128]⟩
abbrev SN64 : Shape := ⟨2, ![100000, 64]⟩
abbrev SE64 : Shape := ⟨2, ![1600000, 64]⟩

/-- Gather of a per-node scalar at each edge's start index. -/
def gatherNode : GatherDims SN SE1 SE where
  offsetDims := []
  collapsedSliceDims := [0]
  operandBatchingDims := []
  startIndicesBatchingDims := []
  startIndexMap := [0]
  indexVectorDim := 1
  sliceSizes := ![1]
  wf := by decide

/-- Gather of a 128-feature row at each edge's start index. -/
def gatherRow128 : GatherDims SN128 SE1 SE128 where
  offsetDims := [1]
  collapsedSliceDims := [0]
  operandBatchingDims := []
  startIndicesBatchingDims := []
  startIndexMap := [0]
  indexVectorDim := 1
  sliceSizes := ![1, 128]
  wf := by decide

/-- Gather of a 64-feature row at each edge's start index. -/
def gatherRow64 : GatherDims SN64 SE1 SE64 where
  offsetDims := [1]
  collapsedSliceDims := [0]
  operandBatchingDims := []
  startIndicesBatchingDims := []
  startIndexMap := [0]
  indexVectorDim := 1
  sliceSizes := ![1, 64]
  wf := by decide

/-- Scatter of one scalar per edge into the per-node array. -/
def scatterNode : ScatterDims SN SE1 SE where
  updateWindowDims := []
  insertedWindowDims := [0]
  scatterDimsToOperandDims := [0]
  indexVectorDim := 1
  wf := by decide

/-- Scatter of one 128-feature row per edge into the node table. -/
def scatterRow128 : ScatterDims SN128 SE1 SE128 where
  updateWindowDims := [1]
  insertedWindowDims := [0]
  scatterDimsToOperandDims := [0]
  indexVectorDim := 1
  wf := by decide

/-- Scatter of one 64-feature row per edge into the node table. -/
def scatterRow64 : ScatterDims SN64 SE1 SE64 where
  updateWindowDims := [1]
  insertedWindowDims := [0]
  scatterDimsToOperandDims := [0]
  indexVectorDim := 1
  wf := by decide

end Cert.Gcn
-- ==== Proof.KernelFold.lean ====
/-
  The kernel's buffers at each boundary of @main, walked back to the launch memory. The host stretch before the
  first region computes the source and destination columns of the edge list, the degree count and its inverse
  square root — the same operations, on the same argument, as the reference's first stages, whose names are used
  here. Each region leaves its result arrays at one whole-array function of what it found (the three region
  modules); a buffer a region or a stretch does not write is carried through unchanged. The stretches between the
  regions gather the narrow copy of the scaled rows at each edge's source and scatter-add the rows at each edge's
  destination; a change of float format being the identity on extended reals, the narrow copy is the scaled rows.
-/
import proofs.«152188_j84507776516794_2_alg».proof.Proof.Gen.KernelIdeal.Frame
import proofs.«152188_j84507776516794_2_alg».proof.Proof.Gen.ReferenceIdeal.Read
import proofs.«152188_j84507776516794_2_alg».proof.Proof.Region1
import proofs.«152188_j84507776516794_2_alg».proof.Proof.Region2
import proofs.«152188_j84507776516794_2_alg».proof.Proof.GraphDims
import Idealize.ShloMosaic.Lib.StableHlo.Run

set_option maxRecDepth 16384

noncomputable section

namespace Cert.Gcn.Ker

open Cert.KernelIdeal Cert.KernelIdeal.Gen
open Idealize.ShloMosaic Idealize.ShloMosaic.TcCoe Idealize.ShloMosaic.ValueIdx Idealize.ShloMosaic.StableHlo
open Idealize.SL.Sem
open Idealize.ShloMosaic.Pipeline (Dat Cfg Window)

variable (m : (ℓ : Loc nD τ sig) → Buf (Elt Ideal) ℓ) (ρ : Dev nD → PrngReg) (c : Dev nD)

/-- The normaliser as a column: the inverse square root of each node's degree count. -/
def dcol (ei : S2x1600000.Idx → BitVec 32) : S100000x1.Idx → EReal :=
  shapeCast S100000x1 (Cert.ReferenceIdeal.Read.val_main_v10 (F := Ideal) ei) (by decide)

/-- The scatter-add, into zeros, of the rows of the table `T` gathered at each edge's source, at each edge's
    destination (128 features). -/
def aggregate128 (T : S100000x128.Idx → EReal) (ei : S2x1600000.Idx → BitVec 32) : S100000x128.Idx → EReal :=
  Host.scatterAdd (F := Ideal) (φ := .f32) Cert.Gcn.scatterRow128 (fun _ => Ideal.ofBits .f32 0x00000000#32)
    (Cert.ReferenceIdeal.Read.val_main_v38 (F := Ideal) ei)
    (Host.gather Cert.Gcn.gatherRow128 T (Cert.ReferenceIdeal.Read.val_main_v32 (F := Ideal) ei))

/-- The same for 64 features. -/
def aggregate64 (T : S100000x64.Idx → EReal) (ei : S2x1600000.Idx → BitVec 32) : S100000x64.Idx → EReal :=
  Host.scatterAdd (F := Ideal) (φ := .f32) Cert.Gcn.scatterRow64 (fun _ => Ideal.ofBits .f32 0x00000000#32)
    (Cert.ReferenceIdeal.Read.val_main_v38 (F := Ideal) ei)
    (Host.gather Cert.Gcn.gatherRow64 T (Cert.ReferenceIdeal.Read.val_main_v32 (F := Ideal) ei))

/-! ## After the first host stretch -/

theorem W1_arg0 : W1 m ρ c (Proc.devRef .tc main_arg0) = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem W1_arg2 : W1 m ρ c (Proc.devRef .tc main_arg2) = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem W1_arg3 : W1 m ρ c (Proc.devRef .tc main_arg3) = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem W1_arg4 : W1 m ρ c (Proc.devRef .tc main_arg4) = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem W1_arg5 : W1 m ρ c (Proc.devRef .tc main_arg5) = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The source column of the edge list. -/
theorem W1_v1 : W1 m ρ c (Proc.devRef .tc main_v1) = Cert.ReferenceIdeal.Read.val_main_v1 (F := Ideal) (m ((c : Thread nD τ).loc main_arg1)) := by
  show StableHlo.after hostOps0 (W0 m ρ c) (Proc.devRef .tc main_v1) = _
  after_results
  rfl
/-- The destination column of the edge list. -/
theorem W1_v3 : W1 m ρ c (Proc.devRef .tc main_v3) = Cert.ReferenceIdeal.Read.val_main_v3 (F := Ideal) (m ((c : Thread nD τ).loc main_arg1)) := by
  show StableHlo.after hostOps0 (W0 m ρ c) (Proc.devRef .tc main_v3) = _
  after_results
  rfl
/-- The normaliser column. -/
theorem W1_v11 : W1 m ρ c (Proc.devRef .tc main_v11) = dcol (m ((c : Thread nD τ).loc main_arg1)) := by
  show StableHlo.after hostOps0 (W0 m ρ c) (Proc.devRef .tc main_v11) = _
  after_results
  rfl

/-! ## After the first region -/

theorem W2_v1 : W2 m ρ c (Proc.devRef .tc main_v1) = Cert.ReferenceIdeal.Read.val_main_v1 (F := Ideal) (m ((c : Thread nD τ).loc main_arg1)) :=
  (W2_of_ne m ρ c main_v1 (by decide)).trans (W1_v1 m ρ c)
theorem W2_v3 : W2 m ρ c (Proc.devRef .tc main_v3) = Cert.ReferenceIdeal.Read.val_main_v3 (F := Ideal) (m ((c : Thread nD τ).loc main_arg1)) :=
  (W2_of_ne m ρ c main_v3 (by decide)).trans (W1_v3 m ρ c)
theorem W2_arg3 : W2 m ρ c (Proc.devRef .tc main_arg3) = m ((c : Thread nD τ).loc main_arg3) :=
  (W2_of_ne m ρ c main_arg3 (by decide)).trans (W1_arg3 m ρ c)
theorem W2_arg4 : W2 m ρ c (Proc.devRef .tc main_arg4) = m ((c : Thread nD τ).loc main_arg4) :=
  (W2_of_ne m ρ c main_arg4 (by decide)).trans (W1_arg4 m ρ c)
theorem W2_arg5 : W2 m ρ c (Proc.devRef .tc main_arg5) = m ((c : Thread nD τ).loc main_arg5) :=
  (W2_of_ne m ρ c main_arg5 (by decide)).trans (W1_arg5 m ρ c)
theorem W2_v11 : W2 m ρ c (Proc.devRef .tc main_v11) = dcol (m ((c : Thread nD τ).loc main_arg1)) :=
  ((W2_arr m ρ c 2).trans (((dat0 (V1 m ρ) c).arrAt_in 2 rfl _).trans (A_eq0 (V1 m ρ) c 2))).trans (W1_v11 m ρ c)

/-- The first layer's scaled rows. -/
abbrev hs1 : S100000x128.Idx → EReal :=
  scaledRows (m ((c : Thread nD τ).loc main_arg0)) (m ((c : Thread nD τ).loc main_arg2)) (dcol (m ((c : Thread nD τ).loc main_arg1)))

theorem W2_v12_0 : W2 m ρ c (Proc.devRef .tc main_v12_0) = hs1 m c := by
  refine (W2_arr m ρ c 3).trans ((final0_3 (V1 m ρ) c).trans ?_)
  show scaledRows (W1 m ρ c (Proc.devRef .tc main_arg0)) (W1 m ρ c (Proc.devRef .tc main_arg2)) (W1 m ρ c (Proc.devRef .tc main_v11)) = _
  rw [W1_arg0, W1_arg2, W1_v11]
theorem W2_v12_1 : W2 m ρ c (Proc.devRef .tc main_v12_1) = hs1 m c := by
  refine (W2_arr m ρ c 4).trans ((final0_4 (V1 m ρ) c).trans ?_)
  show scaledRows (W1 m ρ c (Proc.devRef .tc main_arg0)) (W1 m ρ c (Proc.devRef .tc main_arg2)) (W1 m ρ c (Proc.devRef .tc main_v11)) = _
  rw [W1_arg0, W1_arg2, W1_v11]

/-! ## After the second host stretch -/

theorem W3_v1 : W3 m ρ c (Proc.devRef .tc main_v1) = Cert.ReferenceIdeal.Read.val_main_v1 (F := Ideal) (m ((c : Thread nD τ).loc main_arg1)) :=
  (StableHlo.after_of_forall_not_mem (b := Proc.devRef .tc main_v1) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W2_v1 m ρ c)
theorem W3_v3 : W3 m ρ c (Proc.devRef .tc main_v3) = Cert.ReferenceIdeal.Read.val_main_v3 (F := Ideal) (m ((c : Thread nD τ).loc main_arg1)) :=
  (StableHlo.after_of_forall_not_mem (b := Proc.devRef .tc main_v3) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W2_v3 m ρ c)
theorem W3_v11 : W3 m ρ c (Proc.devRef .tc main_v11) = dcol (m ((c : Thread nD τ).loc main_arg1)) :=
  (StableHlo.after_of_forall_not_mem (b := Proc.devRef .tc main_v11) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W2_v11 m ρ c)
theorem W3_arg4 : W3 m ρ c (Proc.devRef .tc main_arg4) = (m ((c : Thread nD τ).loc main_arg4)) :=
  (StableHlo.after_of_forall_not_mem (b := Proc.devRef .tc main_arg4) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W2_arg4 m ρ c)
theorem W3_arg5 : W3 m ρ c (Proc.devRef .tc main_arg5) = (m ((c : Thread nD τ).loc main_arg5)) :=
  (StableHlo.after_of_forall_not_mem (b := Proc.devRef .tc main_arg5) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W2_arg5 m ρ c)
theorem W3_v12_0 : W3 m ρ c (Proc.devRef .tc main_v12_0) = hs1 m c :=
  (StableHlo.after_of_forall_not_mem (b := Proc.devRef .tc main_v12_0) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W2_v12_0 m ρ c)

/-- The first layer's aggregate: the scaled rows gathered at the sources, scatter-added at the destinations. -/
abbrev agg1 : S100000x128.Idx → EReal := aggregate128 (hs1 m c) (m ((c : Thread nD τ).loc main_arg1))
/-- The first bias as a row. -/
abbrev b1row : S1x128.Idx → EReal := shapeCast (s := S128) S1x128 (m ((c : Thread nD τ).loc main_arg3)) (by decide)

theorem W3_v23 : W3 m ρ c (Proc.devRef .tc main_v23) = agg1 m c := by
  show StableHlo.after hostOps1 (W2 m ρ c) (Proc.devRef .tc main_v23) = _
  after_results
  rw [W2_v3, W2_v12_1, W2_v1]
  rfl
theorem W3_v24 : W3 m ρ c (Proc.devRef .tc main_v24) = b1row m c := by
  show StableHlo.after hostOps1 (W2 m ρ c) (Proc.devRef .tc main_v24) = _
  after_results
  rw [W2_arg3]
  rfl

/-! ## After the second region -/

theorem W4_v1 : W4 m ρ c (Proc.devRef .tc main_v1) = Cert.ReferenceIdeal.Read.val_main_v1 (F := Ideal) (m ((c : Thread nD τ).loc main_arg1)) :=
  (W4_of_ne m ρ c main_v1 (by decide)).trans (W3_v1 m ρ c)
theorem W4_v3 : W4 m ρ c (Proc.devRef .tc main_v3) = Cert.ReferenceIdeal.Read.val_main_v3 (F := Ideal) (m ((c : Thread nD τ).loc main_arg1)) :=
  (W4_of_ne m ρ c main_v3 (by decide)).trans (W3_v3 m ρ c)
theorem W4_arg5 : W4 m ρ c (Proc.devRef .tc main_arg5) = (m ((c : Thread nD τ).loc main_arg5)) :=
  (W4_of_ne m ρ c main_arg5 (by decide)).trans (W3_arg5 m ρ c)
theorem W4_v11 : W4 m ρ c (Proc.devRef .tc main_v11) = dcol (m ((c : Thread nD τ).loc main_arg1)) :=
  ((W4_arr m ρ c 2).trans (((dat1 (V3 m ρ) c).arrAt_in 2 rfl _).trans (A_eq1 (V3 m ρ) c 2))).trans (W3_v11 m ρ c)

/-- The second layer's scaled rows. -/
abbrev hs2 : S100000x64.Idx → EReal :=
  layer2Rows (hs1 m c) (agg1 m c) (dcol (m ((c : Thread nD τ).loc main_arg1))) (b1row m c) (m ((c : Thread nD τ).loc main_arg4))

theorem W4_v25_0 : W4 m ρ c (Proc.devRef .tc main_v25_0) = hs2 m c := by
  refine (W4_arr m ρ c 5).trans ((final1_5 (V3 m ρ) c).trans ?_)
  show layer2Rows (W3 m ρ c (Proc.devRef .tc main_v12_0)) (W3 m ρ c (Proc.devRef .tc main_v23)) (W3 m ρ c (Proc.devRef .tc main_v11))
    (W3 m ρ c (Proc.devRef .tc main_v24)) (W3 m ρ c (Proc.devRef .tc main_arg4)) = _
  rw [W3_v12_0, W3_v23, W3_v11, W3_v24, W3_arg4]
theorem W4_v25_1 : W4 m ρ c (Proc.devRef .tc main_v25_1) = hs2 m c := by
  refine (W4_arr m ρ c 6).trans ((final1_6 (V3 m ρ) c).trans ?_)
  show layer2Rows (W3 m ρ c (Proc.devRef .tc main_v12_0)) (W3 m ρ c (Proc.devRef .tc main_v23)) (W3 m ρ c (Proc.devRef .tc main_v11))
    (W3 m ρ c (Proc.devRef .tc main_v24)) (W3 m ρ c (Proc.devRef .tc main_arg4)) = _
  rw [W3_v12_0, W3_v23, W3_v11, W3_v24, W3_arg4]

/-! ## After the third host stretch -/

theorem W5_v11 : W5 m ρ c (Proc.devRef .tc main_v11) = dcol (m ((c : Thread nD τ).loc main_arg1)) :=
  (StableHlo.after_of_forall_not_mem (b := Proc.devRef .tc main_v11) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W4_v11 m ρ c)
theorem W5_v25_0 : W5 m ρ c (Proc.devRef .tc main_v25_0) = hs2 m c :=
  (StableHlo.after_of_forall_not_mem (b := Proc.devRef .tc main_v25_0) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W4_v25_0 m ρ c)

/-- The second layer's aggregate. -/
abbrev agg2 : S100000x64.Idx → EReal := aggregate64 (hs2 m c) (m ((c : Thread nD τ).loc main_arg1))
/-- The second bias as a row. -/
abbrev b2row : S1x64.Idx → EReal := shapeCast (s := S64) S1x64 (m ((c : Thread nD τ).loc main_arg5)) (by decide)

theorem W5_v36 : W5 m ρ c (Proc.devRef .tc main_v36) = agg2 m c := by
  show StableHlo.after hostOps2 (W4 m ρ c) (Proc.devRef .tc main_v36) = _
  after_results
  rw [W4_v3, W4_v25_1, W4_v1]
  rfl
theorem W5_v37 : W5 m ρ c (Proc.devRef .tc main_v37) = b2row m c := by
  show StableHlo.after hostOps2 (W4 m ρ c) (Proc.devRef .tc main_v37) = _
  after_results
  rw [W4_arg5]
  rfl

/-! ## After the third region: the result -/

/-- THE KERNEL'S RESULT ARRAY: the second layer's output over the second layer's scaled rows and their aggregate. -/
theorem W6_v38 : W6 m ρ c (Proc.devRef .tc main_v38) = combineRows (hs2 m c) (agg2 m c) (dcol (m ((c : Thread nD τ).loc main_arg1))) (b2row m c) := by
  refine (W6_arr m ρ c 4).trans ((final2_4 (V5 m ρ) c).trans ?_)
  show combineRows (W5 m ρ c (Proc.devRef .tc main_v25_0)) (W5 m ρ c (Proc.devRef .tc main_v36)) (W5 m ρ c (Proc.devRef .tc main_v11))
    (W5 m ρ c (Proc.devRef .tc main_v37)) = _
  rw [W5_v25_0, W5_v36, W5_v11, W5_v37]

end Cert.Gcn.Ker

end
-- ==== Proof.RefRead.lean ====
/-
  The reference program of a two-layer graph convolution, read index by index over the extended reals: each
  layer's output row is a sum over the edges scattered into it of the gathered, weighted feature rows, plus the
  node's own weighted row, plus the bias; the weight of a node is the reciprocal square root of one plus the
  number of edges that point at it.
-/
import proofs.«152188_j84507776516794_2_alg».proof.Proof.Gen.ReferenceIdeal.Read
import proofs.«152188_j84507776516794_2_alg».proof.Proof.GraphDims

noncomputable section

namespace Cert.Gcn.Ref

open Cert.ReferenceIdeal Cert.ReferenceIdeal.Read Idealize.ShloMosaic Idealize.ShloMosaic.ValueIdx

/-- The accumulating scatter over the extended reals, at an index: the operand's element plus the sum of the
    updates whose result index is that element. -/
theorem scatterAdd_apply {s si u : Shape} {w : Nat} (d : ScatterDims s si u) (x : FVec Ideal s .f32) (idx : IVec si w)
    (upd : FVec Ideal u .f32) (i : s.Idx) :
    Host.scatterAdd (F := Ideal) d x idx upd i = x i + ∑ j ∈ Finset.univ.filter (fun j => d.resultIdx? j idx = some i), upd j := rfl

/-- The single-precision word of one denotes the extended real one. -/
theorem one_f32 : Ideal.ofBits .f32 0x3F800000#32 = 1 := by
  simp [Ideal.ofBits, Ideal.ieee, -EReal.coe_mul]; norm_num

theorem scatterNode_eq : scatter_S100000_S1600000x1_S1600000_n_0_0_1 = scatterNode := rfl
theorem gatherNode_eq : gather_S100000_S1600000x1_S1600000_n_0_n_n_0_1_1 = gatherNode := rfl
theorem gatherRow128_eq : gather_S100000x128_S1600000x1_S1600000x128_1_0_n_n_0_1_1128 = gatherRow128 := rfl
theorem scatterRow128_eq : scatter_S100000x128_S1600000x1_S1600000x128_1_0_0_1 = scatterRow128 := rfl
theorem gatherRow64_eq : gather_S100000x64_S1600000x1_S1600000x64_1_0_n_n_0_1_164 = gatherRow64 := rfl
theorem scatterRow64_eq : scatter_S100000x64_S1600000x1_S1600000x64_1_0_0_1 = scatterRow64 := rfl

/-- The in-degree count: zero, plus one for every edge whose destination is the node. -/
theorem val_main_v7_apply (x1 : (⟨S2x1600000, .i32⟩ : BufTy).Contents (Elt Ideal)) (i : SN.Idx) :
    val_main_v7 (F := Ideal) x1 i
      = 0 + ∑ j ∈ Finset.univ.filter (fun j : SE.Idx => scatterNode.resultIdx? j (val_main_v6 (F := Ideal) x1) = some i), (1 : EReal) := by
  unfold val_main_v7
  rw [scatterAdd_apply, val_main_v5_apply, val_main_cst_0_apply, Ideal.ofBits_def, Ideal.ofBits_zero_f32, scatterNode_eq]
  simp only [val_main_v4_apply, val_main_cst_apply, Ideal.ofBits_def, one_f32]

/-- The weight of a node: the reciprocal square root of one plus its in-degree count. -/
theorem val_main_v10_read (x1 : (⟨S2x1600000, .i32⟩ : BufTy).Contents (Elt Ideal)) (i : SN.Idx) :
    val_main_v10 (F := Ideal) x1 i
      = Ideal.rsqrt ((0 + ∑ j ∈ Finset.univ.filter (fun j : SE.Idx => scatterNode.resultIdx? j (val_main_v6 (F := Ideal) x1) = some i), (1 : EReal)) + 1) := by
  rw [val_main_v10_apply, val_main_v9_apply, Ideal.hostUnary_rsqrt_def, Ideal.addf_def, val_main_v7_apply,
    val_main_v8_apply, val_main_cst_1_apply, Ideal.ofBits_def, one_f32]

/-- A gather reads its operand at the operand index of the result index. -/
theorem gather_apply {α : Type} {s si t : Shape} {w : Nat} (d : GatherDims s si t) (x : s.Idx → α) (idx : IVec si w)
    (j : t.Idx) : Host.gather d x idx j = x (d.operandIdx j idx) := rfl

/-- The weight of a node is a nonnegative real: one plus a count is a positive real. -/
theorem val_main_v10_real (x1 : (⟨S2x1600000, .i32⟩ : BufTy).Contents (Elt Ideal)) (i : SN.Idx) :
    ∃ d : ℝ, 0 ≤ d ∧ val_main_v10 (F := Ideal) x1 i = (d : EReal) := by
  rw [val_main_v10_read, Finset.sum_const, nsmul_one, zero_add]
  generalize Finset.card _ = n
  have h : ((n : EReal) + 1) = (((n : ℝ) + 1 : ℝ) : EReal) := by
    rw [EReal.coe_add, EReal.coe_natCast, EReal.coe_one]
  have hp : (0 : ℝ) < (n : ℝ) + 1 := by positivity
  rw [h, Ideal.rsqrt_coe, if_neg (not_lt.mpr hp.le), if_neg hp.ne']
  exact ⟨_, by positivity, rfl⟩

/-- The weight gathered at each edge's source. -/
theorem val_main_v18_read (x1 : (⟨S2x1600000, .i32⟩ : BufTy).Contents (Elt Ideal)) (j : SE.Idx) :
    val_main_v18 (F := Ideal) x1 j = val_main_v10 (F := Ideal) x1 (gatherNode.operandIdx j (val_main_v17 (F := Ideal) x1)) := by
  unfold val_main_v18
  rw [gather_apply, gatherNode_eq]

/-- The weight gathered at each edge's destination. -/
theorem val_main_v25_read (x1 : (⟨S2x1600000, .i32⟩ : BufTy).Contents (Elt Ideal)) (j : SE.Idx) :
    val_main_v25 (F := Ideal) x1 j = val_main_v10 (F := Ideal) x1 (gatherNode.operandIdx j (val_main_v24 (F := Ideal) x1)) := by
  unfold val_main_v25
  rw [gather_apply, gatherNode_eq]

/-- The edge weight, broadcast along the 128 features. -/
theorem val_main_v35_read (x1 : (⟨S2x1600000, .i32⟩ : BufTy).Contents (Elt Ideal)) (j : SE128.Idx) :
    val_main_v35 (F := Ideal) x1 j
      = val_main_v10 (F := Ideal) x1 (gatherNode.operandIdx (ix1 (n := 1600000) (j 0)) (val_main_v17 (F := Ideal) x1))
        * val_main_v10 (F := Ideal) x1 (gatherNode.operandIdx (ix1 (n := 1600000) (j 0)) (val_main_v24 (F := Ideal) x1)) := by
  have h : idx_main_v34 (idx_main_v35 j) = ix1 (n := 1600000) (j 0) := funext fun a => match a with | ⟨0, _⟩ => rfl
  rw [val_main_v35_apply, val_main_v34_apply, val_main_v26_apply, val_main_v18_read, val_main_v25_read, Ideal.mulf_def, h]

/-- The feature row gathered at each edge's source. -/
theorem val_main_v33_read (x0 : (⟨S100000x64, .f32⟩ : BufTy).Contents (Elt Ideal)) (x1 : (⟨S2x1600000, .i32⟩ : BufTy).Contents (Elt Ideal)) (x2 : (⟨S64x128, .f32⟩ : BufTy).Contents (Elt Ideal)) (j : SE128.Idx) :
    val_main_v33 (F := Ideal) x0 x1 x2 j
      = val_main_v11 (F := Ideal) x0 x2 (gatherRow128.operandIdx j (val_main_v32 (F := Ideal) x1)) := by
  unfold val_main_v33
  rw [gather_apply, gatherRow128_eq]

/-- The sum scattered into a row of layer one: over the edges whose destination is the row, the source's feature
    row times the edge weight. -/
theorem val_main_v39_read (x0 : (⟨S100000x64, .f32⟩ : BufTy).Contents (Elt Ideal)) (x1 : (⟨S2x1600000, .i32⟩ : BufTy).Contents (Elt Ideal)) (x2 : (⟨S64x128, .f32⟩ : BufTy).Contents (Elt Ideal)) (i : SN128.Idx) :
    val_main_v39 (F := Ideal) x0 x1 x2 i
      = 0 + ∑ j ∈ Finset.univ.filter (fun j : SE128.Idx => scatterRow128.resultIdx? j (val_main_v38 (F := Ideal) x1) = some i),
          val_main_v11 (F := Ideal) x0 x2 (gatherRow128.operandIdx j (val_main_v32 (F := Ideal) x1))
            * (val_main_v10 (F := Ideal) x1 (gatherNode.operandIdx (ix1 (n := 1600000) (j 0)) (val_main_v17 (F := Ideal) x1))
              * val_main_v10 (F := Ideal) x1 (gatherNode.operandIdx (ix1 (n := 1600000) (j 0)) (val_main_v24 (F := Ideal) x1))) := by
  unfold val_main_v39
  rw [scatterAdd_apply, val_main_v37_apply, val_main_cst_7_apply, Ideal.ofBits_def, Ideal.ofBits_zero_f32, scatterRow128_eq]
  simp only [val_main_v36_apply, Ideal.mulf_def, val_main_v33_read, val_main_v35_read]

/-- The node's own term of layer one: its feature row times the square of its weight. -/
theorem val_main_v43_read (x0 : (⟨S100000x64, .f32⟩ : BufTy).Contents (Elt Ideal)) (x1 : (⟨S2x1600000, .i32⟩ : BufTy).Contents (Elt Ideal)) (x2 : (⟨S64x128, .f32⟩ : BufTy).Contents (Elt Ideal)) (i : SN128.Idx) :
    val_main_v43 (F := Ideal) x0 x1 x2 i
      = val_main_v11 (F := Ideal) x0 x2 i
        * (val_main_v10 (F := Ideal) x1 (ix1 (n := 100000) (i 0)) * val_main_v10 (F := Ideal) x1 (ix1 (n := 100000) (i 0))) := by
  have h : idx_main_v41 (idx_main_v42 i) = ix1 (n := 100000) (i 0) := funext fun a => match a with | ⟨0, _⟩ => rfl
  rw [val_main_v43_apply, val_main_v42_apply, val_main_v41_apply, val_main_v40_apply, Ideal.mulf_def, Ideal.mulf_def, h]

/-- The bias of layer one, broadcast along the nodes. -/
theorem val_main_v46_read (x3 : (⟨S128, .f32⟩ : BufTy).Contents (Elt Ideal)) (i : SN128.Idx) :
    val_main_v46 (F := Ideal) x3 i = x3 (ix1 (n := 128) (i 1)) := by
  have h : idx_main_v45 (idx_main_v46 i) = ix1 (n := 128) (i 1) := funext fun a => match a with | ⟨0, _⟩ => rfl
  rw [val_main_v46_apply, val_main_v45_apply, h]

/-- Layer one before the rectifier. -/
theorem val_main_v47_read (x0 : (⟨S100000x64, .f32⟩ : BufTy).Contents (Elt Ideal)) (x1 : (⟨S2x1600000, .i32⟩ : BufTy).Contents (Elt Ideal)) (x2 : (⟨S64x128, .f32⟩ : BufTy).Contents (Elt Ideal)) (x3 : (⟨S128, .f32⟩ : BufTy).Contents (Elt Ideal)) (i : SN128.Idx) :
    val_main_v47 (F := Ideal) x0 x1 x2 x3 i
      = ((0 + ∑ j ∈ Finset.univ.filter (fun j : SE128.Idx => scatterRow128.resultIdx? j (val_main_v38 (F := Ideal) x1) = some i),
            val_main_v11 (F := Ideal) x0 x2 (gatherRow128.operandIdx j (val_main_v32 (F := Ideal) x1))
              * (val_main_v10 (F := Ideal) x1 (gatherNode.operandIdx (ix1 (n := 1600000) (j 0)) (val_main_v17 (F := Ideal) x1))
                * val_main_v10 (F := Ideal) x1 (gatherNode.operandIdx (ix1 (n := 1600000) (j 0)) (val_main_v24 (F := Ideal) x1))))
          + val_main_v11 (F := Ideal) x0 x2 i
            * (val_main_v10 (F := Ideal) x1 (ix1 (n := 100000) (i 0)) * val_main_v10 (F := Ideal) x1 (ix1 (n := 100000) (i 0))))
        + x3 (ix1 (n := 128) (i 1)) := by
  rw [val_main_v47_apply, val_main_v44_apply, Ideal.addf_def, Ideal.addf_def, val_main_v39_read, val_main_v43_read,
    val_main_v46_read]

/-- The rectifier: the maximum with zero. -/
theorem val_main_v48_read (x0 : (⟨S100000x64, .f32⟩ : BufTy).Contents (Elt Ideal)) (x1 : (⟨S2x1600000, .i32⟩ : BufTy).Contents (Elt Ideal)) (x2 : (⟨S64x128, .f32⟩ : BufTy).Contents (Elt Ideal)) (x3 : (⟨S128, .f32⟩ : BufTy).Contents (Elt Ideal)) (i : SN128.Idx) :
    val_main_v48 (F := Ideal) x0 x1 x2 x3 i = max (val_main_v47 (F := Ideal) x0 x1 x2 x3 i) 0 := by
  rw [val_main_v48_apply, Ideal.maximumf_def, val_main_call0_v0_apply, val_main_call0_cst_apply, Ideal.ofBits_def,
    Ideal.ofBits_zero_f32]

/-- The first product of a feature table with a weight matrix. -/
theorem val_main_v11_read (x0 : (⟨S100000x64, .f32⟩ : BufTy).Contents (Elt Ideal)) (x2 : (⟨S64x128, .f32⟩ : BufTy).Contents (Elt Ideal)) (i : SN128.Idx) :
    val_main_v11 (F := Ideal) x0 x2 i
      = ∑ k : Fin 64, x0 (ix2 (n0 := 100000) (n1 := 64) (i 0) k) * x2 (ix2 (n0 := 64) (n1 := 128) k (i 1)) := by
  rw [val_main_v11_apply]
  refine Finset.sum_congr rfl fun k _ => ?_
  have hl : lidx_main_v11 i k = ix2 (n0 := 100000) (n1 := 64) (i 0) k :=
    funext fun a => match a with | ⟨0, _⟩ => rfl | ⟨1, _⟩ => rfl
  have hr : ridx_main_v11 i k = ix2 (n0 := 64) (n1 := 128) k (i 1) :=
    funext fun a => match a with | ⟨0, _⟩ => rfl | ⟨1, _⟩ => rfl
  rw [hl, hr]

/-- The second product, of the rectified layer one with the second weight matrix. -/
theorem val_main_v60_read (x0 : (⟨S100000x64, .f32⟩ : BufTy).Contents (Elt Ideal)) (x1 : (⟨S2x1600000, .i32⟩ : BufTy).Contents (Elt Ideal)) (x2 : (⟨S64x128, .f32⟩ : BufTy).Contents (Elt Ideal)) (x3 : (⟨S128, .f32⟩ : BufTy).Contents (Elt Ideal)) (x4 : (⟨S128x64, .f32⟩ : BufTy).Contents (Elt Ideal)) (i : SN64.Idx) :
    val_main_v60 (F := Ideal) x0 x1 x2 x3 x4 i
      = ∑ k : Fin 128, val_main_v48 (F := Ideal) x0 x1 x2 x3 (ix2 (n0 := 100000) (n1 := 128) (i 0) k)
          * x4 (ix2 (n0 := 128) (n1 := 64) k (i 1)) := by
  rw [val_main_v60_apply]
  refine Finset.sum_congr rfl fun k _ => ?_
  have hl : lidx_main_v60 i k = ix2 (n0 := 100000) (n1 := 128) (i 0) k :=
    funext fun a => match a with | ⟨0, _⟩ => rfl | ⟨1, _⟩ => rfl
  have hr : ridx_main_v60 i k = ix2 (n0 := 128) (n1 := 64) k (i 1) :=
    funext fun a => match a with | ⟨0, _⟩ => rfl | ⟨1, _⟩ => rfl
  rw [hl, hr]

/-! The second layer recomputes the same index arrays and the same weights from the edge list. -/

theorem val_main_v50_eq (x1 : (⟨S2x1600000, .i32⟩ : BufTy).Contents (Elt Ideal)) : val_main_v50 (F := Ideal) x1 = val_main_v1 (F := Ideal) x1 := rfl
theorem val_main_v52_eq (x1 : (⟨S2x1600000, .i32⟩ : BufTy).Contents (Elt Ideal)) : val_main_v52 (F := Ideal) x1 = val_main_v3 (F := Ideal) x1 := rfl
theorem val_main_v87_eq (x1 : (⟨S2x1600000, .i32⟩ : BufTy).Contents (Elt Ideal)) : val_main_v87 (F := Ideal) x1 = val_main_v38 (F := Ideal) x1 := rfl
theorem val_main_v32_eq (x1 : (⟨S2x1600000, .i32⟩ : BufTy).Contents (Elt Ideal)) : val_main_v32 (F := Ideal) x1 = val_main_v17 (F := Ideal) x1 := rfl
theorem val_main_v81_eq (x1 : (⟨S2x1600000, .i32⟩ : BufTy).Contents (Elt Ideal)) : val_main_v81 (F := Ideal) x1 = val_main_v32 (F := Ideal) x1 := rfl
theorem val_main_v66_eq (x1 : (⟨S2x1600000, .i32⟩ : BufTy).Contents (Elt Ideal)) : val_main_v66 (F := Ideal) x1 = val_main_v17 (F := Ideal) x1 := rfl
theorem val_main_v73_eq (x1 : (⟨S2x1600000, .i32⟩ : BufTy).Contents (Elt Ideal)) : val_main_v73 (F := Ideal) x1 = val_main_v24 (F := Ideal) x1 := rfl
theorem val_main_v55_eq (x1 : (⟨S2x1600000, .i32⟩ : BufTy).Contents (Elt Ideal)) : val_main_v55 (F := Ideal) x1 = val_main_v6 (F := Ideal) x1 := rfl
theorem val_main_v59_eq (x1 : (⟨S2x1600000, .i32⟩ : BufTy).Contents (Elt Ideal)) : val_main_v59 (F := Ideal) x1 = val_main_v10 (F := Ideal) x1 := rfl

end Cert.Gcn.Ref
-- ==== Proof.RefRead2.lean ====
/-
  The second layer of the reference graph convolution, read index by index over the extended reals: the same sum
  over the edges scattered into a row, the node's own weighted row and the bias as in the first layer, with the
  second product of feature table and weight matrix in place of the first, and 64 features per row.
-/
import proofs.«152188_j84507776516794_2_alg».proof.Proof.RefRead

noncomputable section

namespace Cert.Gcn.Ref

open Cert.ReferenceIdeal Cert.ReferenceIdeal.Read Idealize.ShloMosaic Idealize.ShloMosaic.ValueIdx

set_option maxHeartbeats 400000 in
/-- The second layer's weight gathered at each edge's source. -/
theorem val_main_v67_read (x1 : (⟨S2x1600000, .i32⟩ : BufTy).Contents (Elt Ideal)) (j : SE.Idx) :
    val_main_v67 (F := Ideal) x1 j = val_main_v59 (F := Ideal) x1 (gatherNode.operandIdx j (val_main_v66 (F := Ideal) x1)) := by
  unfold val_main_v67
  rw [gather_apply, gatherNode_eq]

set_option maxHeartbeats 400000 in
/-- The second layer's weight gathered at each edge's destination. -/
theorem val_main_v74_read (x1 : (⟨S2x1600000, .i32⟩ : BufTy).Contents (Elt Ideal)) (j : SE.Idx) :
    val_main_v74 (F := Ideal) x1 j = val_main_v59 (F := Ideal) x1 (gatherNode.operandIdx j (val_main_v73 (F := Ideal) x1)) := by
  unfold val_main_v74
  rw [gather_apply, gatherNode_eq]

set_option maxHeartbeats 400000 in
/-- The second layer's edge weight, broadcast along the 64 features. -/
theorem val_main_v84_read (x1 : (⟨S2x1600000, .i32⟩ : BufTy).Contents (Elt Ideal)) (j : SE64.Idx) :
    val_main_v84 (F := Ideal) x1 j
      = val_main_v59 (F := Ideal) x1 (gatherNode.operandIdx (ix1 (n := 1600000) (j 0)) (val_main_v66 (F := Ideal) x1))
        * val_main_v59 (F := Ideal) x1 (gatherNode.operandIdx (ix1 (n := 1600000) (j 0)) (val_main_v73 (F := Ideal) x1)) := by
  have h : idx_main_v83 (idx_main_v84 j) = ix1 (n := 1600000) (j 0) := funext fun a => match a with | ⟨0, _⟩ => rfl
  rw [val_main_v84_apply, val_main_v83_apply, val_main_v75_apply, val_main_v67_read, val_main_v74_read, Ideal.mulf_def, h]

set_option maxHeartbeats 400000 in
/-- The second layer's feature row gathered at each edge's source. -/
theorem val_main_v82_read (x0 : (⟨S100000x64, .f32⟩ : BufTy).Contents (Elt Ideal)) (x1 : (⟨S2x1600000, .i32⟩ : BufTy).Contents (Elt Ideal)) (x2 : (⟨S64x128, .f32⟩ : BufTy).Contents (Elt Ideal)) (x3 : (⟨S128, .f32⟩ : BufTy).Contents (Elt Ideal)) (x4 : (⟨S128x64, .f32⟩ : BufTy).Contents (Elt Ideal)) (j : SE64.Idx) :
    val_main_v82 (F := Ideal) x0 x1 x2 x3 x4 j
      = val_main_v60 (F := Ideal) x0 x1 x2 x3 x4 (gatherRow64.operandIdx j (val_main_v81 (F := Ideal) x1)) := by
  unfold val_main_v82
  rw [gather_apply, gatherRow64_eq]

set_option maxHeartbeats 400000 in
/-- The sum scattered into a row of layer two. -/
theorem val_main_v88_read (x0 : (⟨S100000x64, .f32⟩ : BufTy).Contents (Elt Ideal)) (x1 : (⟨S2x1600000, .i32⟩ : BufTy).Contents (Elt Ideal)) (x2 : (⟨S64x128, .f32⟩ : BufTy).Contents (Elt Ideal)) (x3 : (⟨S128, .f32⟩ : BufTy).Contents (Elt Ideal)) (x4 : (⟨S128x64, .f32⟩ : BufTy).Contents (Elt Ideal)) (i : SN64.Idx) :
    val_main_v88 (F := Ideal) x0 x1 x2 x3 x4 i
      = 0 + ∑ j ∈ Finset.univ.filter (fun j : SE64.Idx => scatterRow64.resultIdx? j (val_main_v87 (F := Ideal) x1) = some i),
          val_main_v60 (F := Ideal) x0 x1 x2 x3 x4 (gatherRow64.operandIdx j (val_main_v81 (F := Ideal) x1))
            * (val_main_v59 (F := Ideal) x1 (gatherNode.operandIdx (ix1 (n := 1600000) (j 0)) (val_main_v66 (F := Ideal) x1))
              * val_main_v59 (F := Ideal) x1 (gatherNode.operandIdx (ix1 (n := 1600000) (j 0)) (val_main_v73 (F := Ideal) x1))) := by
  have h85 : ∀ j : SE64.Idx, val_main_v85 (F := Ideal) x0 x1 x2 x3 x4 j
      = val_main_v60 (F := Ideal) x0 x1 x2 x3 x4 (gatherRow64.operandIdx j (val_main_v81 (F := Ideal) x1))
        * (val_main_v59 (F := Ideal) x1 (gatherNode.operandIdx (ix1 (n := 1600000) (j 0)) (val_main_v66 (F := Ideal) x1))
          * val_main_v59 (F := Ideal) x1 (gatherNode.operandIdx (ix1 (n := 1600000) (j 0)) (val_main_v73 (F := Ideal) x1))) :=
    fun j => by rw [val_main_v85_apply, Ideal.mulf_def, val_main_v82_read, val_main_v84_read]
  unfold val_main_v88
  rw [scatterAdd_apply, val_main_v86_apply, val_main_cst_17_apply, Ideal.ofBits_def, Ideal.ofBits_zero_f32, scatterRow64_eq]
  exact congrArg (HAdd.hAdd (0 : EReal)) (Finset.sum_congr rfl fun j _ => h85 j)

set_option maxHeartbeats 400000 in
/-- The node's own term of layer two. -/
theorem val_main_v92_read (x0 : (⟨S100000x64, .f32⟩ : BufTy).Contents (Elt Ideal)) (x1 : (⟨S2x1600000, .i32⟩ : BufTy).Contents (Elt Ideal)) (x2 : (⟨S64x128, .f32⟩ : BufTy).Contents (Elt Ideal)) (x3 : (⟨S128, .f32⟩ : BufTy).Contents (Elt Ideal)) (x4 : (⟨S128x64, .f32⟩ : BufTy).Contents (Elt Ideal)) (i : SN64.Idx) :
    val_main_v92 (F := Ideal) x0 x1 x2 x3 x4 i
      = val_main_v60 (F := Ideal) x0 x1 x2 x3 x4 i
        * (val_main_v59 (F := Ideal) x1 (ix1 (n := 100000) (i 0)) * val_main_v59 (F := Ideal) x1 (ix1 (n := 100000) (i 0))) := by
  have h : idx_main_v90 (idx_main_v91 i) = ix1 (n := 100000) (i 0) := funext fun a => match a with | ⟨0, _⟩ => rfl
  rw [val_main_v92_apply, val_main_v91_apply, val_main_v90_apply, val_main_v89_apply, Ideal.mulf_def, Ideal.mulf_def, h]

set_option maxHeartbeats 400000 in
/-- The bias of layer two, broadcast along the nodes. -/
theorem val_main_v95_read (x5 : (⟨S64, .f32⟩ : BufTy).Contents (Elt Ideal)) (i : SN64.Idx) :
    val_main_v95 (F := Ideal) x5 i = x5 (ix1 (n := 64) (i 1)) := by
  have h : idx_main_v94 (idx_main_v95 i) = ix1 (n := 64) (i 1) := funext fun a => match a with | ⟨0, _⟩ => rfl
  rw [val_main_v95_apply, val_main_v94_apply, h]

set_option maxHeartbeats 400000 in
/-- Layer two, the program's result. -/
theorem val_main_v96_read (x0 : (⟨S100000x64, .f32⟩ : BufTy).Contents (Elt Ideal)) (x1 : (⟨S2x1600000, .i32⟩ : BufTy).Contents (Elt Ideal)) (x2 : (⟨S64x128, .f32⟩ : BufTy).Contents (Elt Ideal)) (x3 : (⟨S128, .f32⟩ : BufTy).Contents (Elt Ideal)) (x4 : (⟨S128x64, .f32⟩ : BufTy).Contents (Elt Ideal)) (x5 : (⟨S64, .f32⟩ : BufTy).Contents (Elt Ideal)) (i : SN64.Idx) :
    val_main_v96 (F := Ideal) x0 x1 x2 x3 x4 x5 i
      = ((0 + ∑ j ∈ Finset.univ.filter (fun j : SE64.Idx => scatterRow64.resultIdx? j (val_main_v87 (F := Ideal) x1) = some i),
            val_main_v60 (F := Ideal) x0 x1 x2 x3 x4 (gatherRow64.operandIdx j (val_main_v81 (F := Ideal) x1))
              * (val_main_v59 (F := Ideal) x1 (gatherNode.operandIdx (ix1 (n := 1600000) (j 0)) (val_main_v66 (F := Ideal) x1))
                * val_main_v59 (F := Ideal) x1 (gatherNode.operandIdx (ix1 (n := 1600000) (j 0)) (val_main_v73 (F := Ideal) x1))))
          + val_main_v60 (F := Ideal) x0 x1 x2 x3 x4 i
            * (val_main_v59 (F := Ideal) x1 (ix1 (n := 100000) (i 0)) * val_main_v59 (F := Ideal) x1 (ix1 (n := 100000) (i 0))))
        + x5 (ix1 (n := 64) (i 1)) := by
  rw [val_main_v96_apply, val_main_v93_apply, Ideal.addf_def, Ideal.addf_def, val_main_v88_read, val_main_v92_read,
    val_main_v95_read]

end Cert.Gcn.Ref
-- ==== Proof.IndexDecode.lean ====
/-
  Which table row a gather reads and which table row a scatter update lands in, for the dimension records of the
  graph convolution. A gather's start index at edge `e` is the word `idx[e, 0]` read as a signed integer and clamped
  into `[0, 99999]` (`rowAt`); a scatter's is the same word read signed and NOT clamped, and the update is dropped
  unless that integer is a row number in `[0, 100000)`, in which case the clamp is the identity and both name the
  same row. Last, the index normalisation `v < 0 ? v + n : v` leaves a nonnegative word alone.
-/
import proofs.«152188_j84507776516794_2_alg».proof.Proof.GraphDims

namespace Cert.Gcn

open Idealize.ShloMosaic Idealize.ShloMosaic.ValueIdx

/-- The row a gather reads at edge `e`: the start index read signed and clamped into `[0, 99999]`. -/
def rowAt (idx : IVec SE1 32) (e : Fin 1600000) : Fin 100000 :=
  ⟨min (idx (ix2 e (0 : Fin 1))).toInt.toNat 99999, by omega⟩

theorem rowAt_val (idx : IVec SE1 32) (e : Fin 1600000) :
    (rowAt idx e).val = min (idx (ix2 e (0 : Fin 1))).toInt.toNat 99999 := rfl

/-- The row depends on the edge's index word only. -/
theorem rowAt_congr {idx idx' : IVec SE1 32} {e : Fin 1600000}
    (h : idx' (ix2 e (0 : Fin 1)) = idx (ix2 e (0 : Fin 1))) : rowAt idx' e = rowAt idx e := by
  refine Fin.ext ?_
  show min (idx' (ix2 e (0 : Fin 1))).toInt.toNat 99999 = min (idx (ix2 e (0 : Fin 1))).toInt.toNat 99999
  rw [h]

/-- A gather of a per-node scalar read at edge `e`: the operand at the clamped start index. The one operand axis is
    collapsed, so its coordinate is the start alone. -/
theorem gatherNode_apply {α : Type} (x : SN.Idx → α) (idx : IVec SE1 32) (e : SE.Idx) :
    Host.gather gatherNode x idx e = x (ix1 (rowAt idx (e 0))) := by
  unfold Host.gather
  congr 1
  funext a
  obtain rfl : a = 0 := Subsingleton.elim _ _
  refine Fin.ext ?_
  show gatherNode.start e idx 0 + gatherNode.batchCoord e 0 + gatherNode.offCoord e 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ gatherNode.startIndexMap from List.mem_singleton.mpr rfl)]
  have hsi : gatherNode.siIdx e ⟨List.idxOf (0 : Fin 1) gatherNode.startIndexMap,
      List.idxOf_lt_length_iff.2 (List.mem_singleton.mpr rfl)⟩ = ix2 (e 0) (0 : Fin 1) := by
    funext b; refine Fin.ext ?_
    match b with
    | ⟨0, _⟩ => rfl
    | ⟨1, _⟩ => rfl
  rw [hsi]
  rfl

/-- The table index a gather of 128-feature rows reads at `j`: axis 0 is collapsed and carries the clamped start
    index of edge `j 0`; axis 1 is the one offset axis and carries the feature coordinate `j 1`. -/
theorem gatherRow128_operandIdx (idx : IVec SE1 32) (j : SE128.Idx) :
    gatherRow128.operandIdx j idx = ix2 (rowAt idx (j 0)) (j 1) := by
  funext a
  refine Fin.ext ?_
  match a with
  | ⟨0, _⟩ =>
    show gatherRow128.start j idx 0 + gatherRow128.batchCoord j 0 + gatherRow128.offCoord j 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gatherRow128.startIndexMap from List.mem_singleton.mpr rfl)]
    have hsi : gatherRow128.siIdx j ⟨List.idxOf (0 : Fin 2) gatherRow128.startIndexMap,
        List.idxOf_lt_length_iff.2 (List.mem_singleton.mpr rfl)⟩ = ix2 (j 0) (0 : Fin 1) := by
      funext b; refine Fin.ext ?_
      match b with
      | ⟨0, _⟩ => rfl
      | ⟨1, _⟩ => rfl
    rw [hsi]
    rfl
  | ⟨1, _⟩ =>
    show gatherRow128.start j idx 1 + gatherRow128.batchCoord j 1 + gatherRow128.offCoord j 1 = (j 1).val
    rw [GatherDims.batchCoord_eq_zero _ _ _ List.not_mem_nil]
    unfold GatherDims.start
    rw [dif_neg (show (1 : Fin 2) ∉ gatherRow128.startIndexMap by decide)]
    unfold GatherDims.offCoord
    rw [dif_pos (show (1 : Fin 2) ∈ gatherRow128.sKept by decide)]
    simp only [Nat.zero_add]
    rfl

/-- A gather of 128-feature rows read at `j`: the table at the clamped start index of edge `j 0`, feature `j 1`. -/
theorem gatherRow128_apply {α : Type} (x : SN128.Idx → α) (idx : IVec SE1 32) (j : SE128.Idx) :
    Host.gather gatherRow128 x idx j = x (ix2 (rowAt idx (j 0)) (j 1)) :=
  congrArg x (gatherRow128_operandIdx idx j)

/-- The table index a gather of 64-feature rows reads at `j`: axis 0 is collapsed and carries the clamped start
    index of edge `j 0`; axis 1 is the one offset axis and carries the feature coordinate `j 1`. -/
theorem gatherRow64_operandIdx (idx : IVec SE1 32) (j : SE64.Idx) :
    gatherRow64.operandIdx j idx = ix2 (rowAt idx (j 0)) (j 1) := by
  funext a
  refine Fin.ext ?_
  match a with
  | ⟨0, _⟩ =>
    show gatherRow64.start j idx 0 + gatherRow64.batchCoord j 0 + gatherRow64.offCoord j 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gatherRow64.startIndexMap from List.mem_singleton.mpr rfl)]
    have hsi : gatherRow64.siIdx j ⟨List.idxOf (0 : Fin 2) gatherRow64.startIndexMap,
        List.idxOf_lt_length_iff.2 (List.mem_singleton.mpr rfl)⟩ = ix2 (j 0) (0 : Fin 1) := by
      funext b; refine Fin.ext ?_
      match b with
      | ⟨0, _⟩ => rfl
      | ⟨1, _⟩ => rfl
    rw [hsi]
    rfl
  | ⟨1, _⟩ =>
    show gatherRow64.start j idx 1 + gatherRow64.batchCoord j 1 + gatherRow64.offCoord j 1 = (j 1).val
    rw [GatherDims.batchCoord_eq_zero _ _ _ List.not_mem_nil]
    unfold GatherDims.start
    rw [dif_neg (show (1 : Fin 2) ∉ gatherRow64.startIndexMap by decide)]
    unfold GatherDims.offCoord
    rw [dif_pos (show (1 : Fin 2) ∈ gatherRow64.sKept by decide)]
    simp only [Nat.zero_add]
    rfl

/-- A gather of 64-feature rows read at `j`: the table at the clamped start index of edge `j 0`, feature `j 1`. -/
theorem gatherRow64_apply {α : Type} (x : SN64.Idx → α) (idx : IVec SE1 32) (j : SE64.Idx) :
    Host.gather gatherRow64 x idx j = x (ix2 (rowAt idx (j 0)) (j 1)) :=
  congrArg x (gatherRow64_operandIdx idx j)

/-! ## The row scatters -/

/-- On the row axis the window of a 128-feature row scatter starts at the edge's index word, read signed. -/
theorem scatterRow128_start0 (idx : IVec SE1 32) (j : SE128.Idx) :
    scatterRow128.start j idx 0 = (idx (ix2 (j 0) (0 : Fin 1))).toInt := by
  unfold ScatterDims.start
  rw [dif_pos (show (0 : Fin 2) ∈ scatterRow128.scatterDimsToOperandDims from List.mem_singleton.mpr rfl)]
  have hsi : scatterRow128.siIdx j ⟨List.idxOf (0 : Fin 2) scatterRow128.scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- On the feature axis, which the index map does not name, the window starts at 0. -/
theorem scatterRow128_start1 (idx : IVec SE1 32) (j : SE128.Idx) : scatterRow128.start j idx 1 = 0 := by
  unfold ScatterDims.start
  rw [dif_neg (show (1 : Fin 2) ∉ scatterRow128.scatterDimsToOperandDims by decide)]

/-- The row axis is an inserted window axis: its window coordinate is 0. -/
theorem scatterRow128_window0 (j : SE128.Idx) : scatterRow128.window j 0 = 0 := by
  unfold ScatterDims.window
  rw [dif_neg (show (0 : Fin 2) ∉ scatterRow128.sKept by decide)]

/-- The feature axis is the one window axis: its window coordinate is the update's feature coordinate. -/
theorem scatterRow128_window1 (j : SE128.Idx) : scatterRow128.window j 1 = (j 1).val := by
  unfold ScatterDims.window
  rw [dif_pos (show (1 : Fin 2) ∈ scatterRow128.sKept by decide)]
  rfl

/-- An update of a 128-feature row scatter that lands at `i`: the edge's index word, read signed and NOT clamped, is a
    row number in `[0, 100000)`, that row is `i 0`, and the feature coordinate is kept. -/
theorem scatterRow128_lands {idx : IVec SE1 32} {j : SE128.Idx} {i : SN128.Idx}
    (h : scatterRow128.resultIdx? j idx = some i) :
    0 ≤ (idx (ix2 (j 0) (0 : Fin 1))).toInt ∧ (idx (ix2 (j 0) (0 : Fin 1))).toInt < 100000 ∧
      (idx (ix2 (j 0) (0 : Fin 1))).toInt.toNat = (i 0).val ∧ (j 1).val = (i 1).val := by
  unfold ScatterDims.resultIdx? at h
  split at h
  · rename_i hall
    have hi := Option.some.inj h
    have h0 : 0 ≤ scatterRow128.start j idx 0 + (scatterRow128.window j 0 : Int) ∧
        scatterRow128.start j idx 0 + (scatterRow128.window j 0 : Int) < (100000 : Nat) := hall 0
    have e0 : (scatterRow128.start j idx 0 + (scatterRow128.window j 0 : Int)).toNat = (i 0).val :=
      congrArg (fun f => (f 0).val) hi
    have e1 : (scatterRow128.start j idx 1 + (scatterRow128.window j 1 : Int)).toNat = (i 1).val :=
      congrArg (fun f => (f 1).val) hi
    rw [scatterRow128_start0, scatterRow128_window0] at h0 e0
    rw [scatterRow128_start1, scatterRow128_window1] at e1
    refine ⟨by omega, by omega, by omega, by omega⟩
  · exact absurd h (by simp)

/-- The converse: an index word that is a row number in `[0, 100000)` lands, at that row and the same feature. -/
theorem scatterRow128_resultIdx?_of_inRange {idx : IVec SE1 32} {j : SE128.Idx}
    (h0 : 0 ≤ (idx (ix2 (j 0) (0 : Fin 1))).toInt) (h1 : (idx (ix2 (j 0) (0 : Fin 1))).toInt < 100000) :
    scatterRow128.resultIdx? j idx
      = some (ix2 (⟨(idx (ix2 (j 0) (0 : Fin 1))).toInt.toNat, by omega⟩ : Fin 100000) (j 1)) := by
  have hall : ∀ a, 0 ≤ scatterRow128.start j idx a + (scatterRow128.window j a : Int) ∧
      scatterRow128.start j idx a + (scatterRow128.window j a : Int) < (SN128.size a : Nat) := by
    intro a
    match a with
    | ⟨0, _⟩ =>
      show 0 ≤ scatterRow128.start j idx 0 + (scatterRow128.window j 0 : Int) ∧
        scatterRow128.start j idx 0 + (scatterRow128.window j 0 : Int) < (100000 : Nat)
      rw [scatterRow128_start0, scatterRow128_window0]; omega
    | ⟨1, _⟩ =>
      show 0 ≤ scatterRow128.start j idx 1 + (scatterRow128.window j 1 : Int) ∧
        scatterRow128.start j idx 1 + (scatterRow128.window j 1 : Int) < (128 : Nat)
      rw [scatterRow128_start1, scatterRow128_window1]
      have := idx2_lt1 j; omega
  unfold ScatterDims.resultIdx?
  rw [dif_pos hall]
  congr 1
  funext a
  refine Fin.ext ?_
  match a with
  | ⟨0, _⟩ =>
    show (scatterRow128.start j idx 0 + (scatterRow128.window j 0 : Int)).toNat = _
    rw [scatterRow128_start0, scatterRow128_window0]; simp
  | ⟨1, _⟩ =>
    show (scatterRow128.start j idx 1 + (scatterRow128.window j 1 : Int)).toNat = (j 1).val
    rw [scatterRow128_start1, scatterRow128_window1]; simp

/-- An update that lands in row `i 0`: a gather whose start index at that edge is the same word reads row `i 0`
    (inside `[0, 100000)` the clamp is the identity). -/
theorem rowAt_of_lands128 {idx idx' : IVec SE1 32} {j : SE128.Idx} {i : SN128.Idx}
    (h : scatterRow128.resultIdx? j idx = some i)
    (hsame : idx' (ix2 (j 0) (0 : Fin 1)) = idx (ix2 (j 0) (0 : Fin 1))) : rowAt idx' (j 0) = i 0 := by
  obtain ⟨h0, h1, h2, _⟩ := scatterRow128_lands h
  refine Fin.ext ?_
  show min (idx' (ix2 (j 0) (0 : Fin 1))).toInt.toNat 99999 = (i 0).val
  rw [hsame]
  omega

/-- On the row axis the window of a 64-feature row scatter starts at the edge's index word, read signed. -/
theorem scatterRow64_start0 (idx : IVec SE1 32) (j : SE64.Idx) :
    scatterRow64.start j idx 0 = (idx (ix2 (j 0) (0 : Fin 1))).toInt := by
  unfold ScatterDims.start
  rw [dif_pos (show (0 : Fin 2) ∈ scatterRow64.scatterDimsToOperandDims from List.mem_singleton.mpr rfl)]
  have hsi : scatterRow64.siIdx j ⟨List.idxOf (0 : Fin 2) scatterRow64.scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- On the feature axis, which the index map does not name, the window starts at 0. -/
theorem scatterRow64_start1 (idx : IVec SE1 32) (j : SE64.Idx) : scatterRow64.start j idx 1 = 0 := by
  unfold ScatterDims.start
  rw [dif_neg (show (1 : Fin 2) ∉ scatterRow64.scatterDimsToOperandDims by decide)]

/-- The row axis is an inserted window axis: its window coordinate is 0. -/
theorem scatterRow64_window0 (j : SE64.Idx) : scatterRow64.window j 0 = 0 := by
  unfold ScatterDims.window
  rw [dif_neg (show (0 : Fin 2) ∉ scatterRow64.sKept by decide)]

/-- The feature axis is the one window axis: its window coordinate is the update's feature coordinate. -/
theorem scatterRow64_window1 (j : SE64.Idx) : scatterRow64.window j 1 = (j 1).val := by
  unfold ScatterDims.window
  rw [dif_pos (show (1 : Fin 2) ∈ scatterRow64.sKept by decide)]
  rfl

/-- An update of a 64-feature row scatter that lands at `i`: the edge's index word, read signed and NOT clamped, is a
    row number in `[0, 100000)`, that row is `i 0`, and the feature coordinate is kept. -/
theorem scatterRow64_lands {idx : IVec SE1 32} {j : SE64.Idx} {i : SN64.Idx}
    (h : scatterRow64.resultIdx? j idx = some i) :
    0 ≤ (idx (ix2 (j 0) (0 : Fin 1))).toInt ∧ (idx (ix2 (j 0) (0 : Fin 1))).toInt < 100000 ∧
      (idx (ix2 (j 0) (0 : Fin 1))).toInt.toNat = (i 0).val ∧ (j 1).val = (i 1).val := by
  unfold ScatterDims.resultIdx? at h
  split at h
  · rename_i hall
    have hi := Option.some.inj h
    have h0 : 0 ≤ scatterRow64.start j idx 0 + (scatterRow64.window j 0 : Int) ∧
        scatterRow64.start j idx 0 + (scatterRow64.window j 0 : Int) < (100000 : Nat) := hall 0
    have e0 : (scatterRow64.start j idx 0 + (scatterRow64.window j 0 : Int)).toNat = (i 0).val :=
      congrArg (fun f => (f 0).val) hi
    have e1 : (scatterRow64.start j idx 1 + (scatterRow64.window j 1 : Int)).toNat = (i 1).val :=
      congrArg (fun f => (f 1).val) hi
    rw [scatterRow64_start0, scatterRow64_window0] at h0 e0
    rw [scatterRow64_start1, scatterRow64_window1] at e1
    refine ⟨by omega, by omega, by omega, by omega⟩
  · exact absurd h (by simp)

/-- The converse: an index word that is a row number in `[0, 100000)` lands, at that row and the same feature. -/
theorem scatterRow64_resultIdx?_of_inRange {idx : IVec SE1 32} {j : SE64.Idx}
    (h0 : 0 ≤ (idx (ix2 (j 0) (0 : Fin 1))).toInt) (h1 : (idx (ix2 (j 0) (0 : Fin 1))).toInt < 100000) :
    scatterRow64.resultIdx? j idx
      = some (ix2 (⟨(idx (ix2 (j 0) (0 : Fin 1))).toInt.toNat, by omega⟩ : Fin 100000) (j 1)) := by
  have hall : ∀ a, 0 ≤ scatterRow64.start j idx a + (scatterRow64.window j a : Int) ∧
      scatterRow64.start j idx a + (scatterRow64.window j a : Int) < (SN64.size a : Nat) := by
    intro a
    match a with
    | ⟨0, _⟩ =>
      show 0 ≤ scatterRow64.start j idx 0 + (scatterRow64.window j 0 : Int) ∧
        scatterRow64.start j idx 0 + (scatterRow64.window j 0 : Int) < (100000 : Nat)
      rw [scatterRow64_start0, scatterRow64_window0]; omega
    | ⟨1, _⟩ =>
      show 0 ≤ scatterRow64.start j idx 1 + (scatterRow64.window j 1 : Int) ∧
        scatterRow64.start j idx 1 + (scatterRow64.window j 1 : Int) < (64 : Nat)
      rw [scatterRow64_start1, scatterRow64_window1]
      have := idx2_lt1 j; omega
  unfold ScatterDims.resultIdx?
  rw [dif_pos hall]
  congr 1
  funext a
  refine Fin.ext ?_
  match a with
  | ⟨0, _⟩ =>
    show (scatterRow64.start j idx 0 + (scatterRow64.window j 0 : Int)).toNat = _
    rw [scatterRow64_start0, scatterRow64_window0]; simp
  | ⟨1, _⟩ =>
    show (scatterRow64.start j idx 1 + (scatterRow64.window j 1 : Int)).toNat = (j 1).val
    rw [scatterRow64_start1, scatterRow64_window1]; simp

/-- An update that lands in row `i 0`: a gather whose start index at that edge is the same word reads row `i 0`
    (inside `[0, 100000)` the clamp is the identity). -/
theorem rowAt_of_lands64 {idx idx' : IVec SE1 32} {j : SE64.Idx} {i : SN64.Idx}
    (h : scatterRow64.resultIdx? j idx = some i)
    (hsame : idx' (ix2 (j 0) (0 : Fin 1)) = idx (ix2 (j 0) (0 : Fin 1))) : rowAt idx' (j 0) = i 0 := by
  obtain ⟨h0, h1, h2, _⟩ := scatterRow64_lands h
  refine Fin.ext ?_
  show min (idx' (ix2 (j 0) (0 : Fin 1))).toInt.toNat 99999 = (i 0).val
  rw [hsame]
  omega

/-! ## The scalar scatter (one scalar per edge into the per-node array) -/

/-- The window of the scalar scatter starts at the edge's index word, read signed. -/
theorem scatterNode_start0 (idx : IVec SE1 32) (e : SE.Idx) :
    scatterNode.start e idx 0 = (idx (ix2 (e 0) (0 : Fin 1))).toInt := by
  unfold ScatterDims.start
  rw [dif_pos (show (0 : Fin 1) ∈ scatterNode.scatterDimsToOperandDims from List.mem_singleton.mpr rfl)]
  have hsi : scatterNode.siIdx e ⟨List.idxOf (0 : Fin 1) scatterNode.scatterDimsToOperandDims,
      List.idxOf_lt_length_iff.2 (List.mem_singleton.mpr rfl)⟩ = ix2 (e 0) (0 : Fin 1) := by
    funext b; refine Fin.ext ?_
    match b with
    | ⟨0, _⟩ => rfl
    | ⟨1, _⟩ => rfl
  rw [hsi]
  rfl

/-- Its one operand axis is an inserted window axis: the window coordinate is 0. -/
theorem scatterNode_window0 (e : SE.Idx) : scatterNode.window e 0 = 0 := by
  unfold ScatterDims.window
  rw [dif_neg (show (0 : Fin 1) ∉ scatterNode.sKept by decide)]

/-- An update of the scalar scatter that lands at `i`: the edge's index word, read signed and NOT clamped, is a node
    number in `[0, 100000)`, and that node is `i 0`. -/
theorem scatterNode_lands {idx : IVec SE1 32} {e : SE.Idx} {i : SN.Idx}
    (h : scatterNode.resultIdx? e idx = some i) :
    0 ≤ (idx (ix2 (e 0) (0 : Fin 1))).toInt ∧ (idx (ix2 (e 0) (0 : Fin 1))).toInt < 100000 ∧
      (idx (ix2 (e 0) (0 : Fin 1))).toInt.toNat = (i 0).val := by
  unfold ScatterDims.resultIdx? at h
  split at h
  · rename_i hall
    have hi := Option.some.inj h
    have h0 : 0 ≤ scatterNode.start e idx 0 + (scatterNode.window e 0 : Int) ∧
        scatterNode.start e idx 0 + (scatterNode.window e 0 : Int) < (100000 : Nat) := hall 0
    have e0 : (scatterNode.start e idx 0 + (scatterNode.window e 0 : Int)).toNat = (i 0).val :=
      congrArg (fun f => (f 0).val) hi
    rw [scatterNode_start0, scatterNode_window0] at h0 e0
    refine ⟨by omega, by omega, by omega⟩
  · exact absurd h (by simp)

/-- The converse: an index word that is a node number in `[0, 100000)` lands, at that node. -/
theorem scatterNode_resultIdx?_of_inRange {idx : IVec SE1 32} {e : SE.Idx}
    (h0 : 0 ≤ (idx (ix2 (e 0) (0 : Fin 1))).toInt) (h1 : (idx (ix2 (e 0) (0 : Fin 1))).toInt < 100000) :
    scatterNode.resultIdx? e idx
      = some (ix1 (⟨(idx (ix2 (e 0) (0 : Fin 1))).toInt.toNat, by omega⟩ : Fin 100000)) := by
  have hall : ∀ a, 0 ≤ scatterNode.start e idx a + (scatterNode.window e a : Int) ∧
      scatterNode.start e idx a + (scatterNode.window e a : Int) < (SN.size a : Nat) := by
    intro a
    obtain rfl : a = 0 := Subsingleton.elim _ _
    show 0 ≤ scatterNode.start e idx 0 + (scatterNode.window e 0 : Int) ∧
      scatterNode.start e idx 0 + (scatterNode.window e 0 : Int) < (100000 : Nat)
    rw [scatterNode_start0, scatterNode_window0]; omega
  unfold ScatterDims.resultIdx?
  rw [dif_pos hall]
  congr 1
  funext a
  obtain rfl : a = 0 := Subsingleton.elim _ _
  refine Fin.ext ?_
  show (scatterNode.start e idx 0 + (scatterNode.window e 0 : Int)).toNat = _
  rw [scatterNode_start0, scatterNode_window0]; simp

/-- A scalar update that lands at node `i 0`: a gather whose start index at that edge is the same word reads node
    `i 0`. -/
theorem rowAt_of_landsNode {idx idx' : IVec SE1 32} {e : SE.Idx} {i : SN.Idx}
    (h : scatterNode.resultIdx? e idx = some i)
    (hsame : idx' (ix2 (e 0) (0 : Fin 1)) = idx (ix2 (e 0) (0 : Fin 1))) : rowAt idx' (e 0) = i 0 := by
  obtain ⟨h0, h1, h2⟩ := scatterNode_lands h
  refine Fin.ext ?_
  show min (idx' (ix2 (e 0) (0 : Fin 1))).toInt.toNat 99999 = (i 0).val
  rw [hsame]
  omega

/-! ## The index normalisation applied before each gather: `v < 0 ? v + n : v` -/

/-- A signed comparison `v < 0` of a word that reads nonnegative is the bit 0. -/
theorem cmpi_slt_zero_of_nonneg (a : BitVec 32) (h : 0 ≤ a.toInt) : IntOp.cmpi .slt a 0#32 = 0#1 := by
  have hs : a.slt 0#32 = false := by
    simp only [BitVec.slt, BitVec.toInt_zero, decide_eq_false_iff_not, not_lt]; exact h
  show BitVec.ofBool (a.slt 0#32) = 0#1
  rw [hs]; rfl

/-- A signed comparison `v < 0` of a word that reads negative is the bit 1. -/
theorem cmpi_slt_zero_of_neg (a : BitVec 32) (h : a.toInt < 0) : IntOp.cmpi .slt a 0#32 = 1#1 := by
  have hs : a.slt 0#32 = true := by
    simp only [BitVec.slt, BitVec.toInt_zero, decide_eq_true_eq]; exact h
  show BitVec.ofBool (a.slt 0#32) = 1#1
  rw [hs]; rfl

/-- Where the index reads nonnegative the normalisation keeps it. -/
theorem select_slt_zero_of_nonneg {s : Shape} (v z n : IVec s 32) (hz : ∀ e, z e = 0#32) (e : s.Idx)
    (h : 0 ≤ (v e).toInt) : select (cmpi .slt v z) (addi v n) v e = v e := by
  show Scalar.select (IntOp.cmpi .slt (v e) (z e)) (IntOp.addi (v e) (n e)) (v e) = v e
  rw [hz e, cmpi_slt_zero_of_nonneg _ h, select_zero]

/-- Where the index reads negative the normalisation adds `n` (in 32-bit words). -/
theorem select_slt_zero_of_neg {s : Shape} (v z n : IVec s 32) (hz : ∀ e, z e = 0#32) (e : s.Idx)
    (h : (v e).toInt < 0) : select (cmpi .slt v z) (addi v n) v e = v e + n e := by
  show Scalar.select (IntOp.cmpi .slt (v e) (z e)) (IntOp.addi (v e) (n e)) (v e) = v e + n e
  rw [hz e, cmpi_slt_zero_of_neg _ h, select_one]
  rfl

end Cert.Gcn
-- ==== Proof.RefIndex.lean ====
/-
  The decode lemmas read at the reference's own index columns. The destination column is used twice: RAW by the row
  scatters (an update whose destination is outside [0, 100000) is dropped) and NORMALISED (a negative index shifted by
  100000, then clamped by the gather) by the gather of the per-node weights at the destination. Where an update lands
  its raw destination is a row number in [0, 100000), so the normalisation and the clamp leave it alone: the weight
  gathered for that edge is the weight of the row the update lands in. The source column is only ever gathered.
-/
import proofs.«152188_j84507776516794_2_alg».proof.Proof.Gen.ReferenceIdeal.Read
import proofs.«152188_j84507776516794_2_alg».proof.Proof.IndexDecode

namespace Cert.Gcn.Ref

open Cert.ReferenceIdeal Cert.ReferenceIdeal.Read Idealize.ShloMosaic Idealize.ShloMosaic.ValueIdx Cert.Gcn

/-- The node a scalar gather reads at edge `e`, as an index of the node array. -/
theorem gatherNode_operandIdx (idx : IVec SE1 32) (e : SE.Idx) :
    gatherNode.operandIdx e idx = ix1 (rowAt idx (e 0)) :=
  gatherNode_apply (fun p => p) idx e

/-- The zero column the destination is compared with. -/
theorem v19_zero (i : S1600000.Idx) : val_main_v19 (F := Ideal) i = 0#32 :=
  (val_main_v19_apply i).trans (val_main_c_3_apply _)

/-- The column form of an edge array read at `[e, 0]` is the array at `e`. -/
theorem idx24_ix2 (e : Fin 1600000) : idx_main_v24 (ix2 e (0 : Fin 1)) = ix1 e := by
  funext a; match a with | ⟨0, _⟩ => rfl
theorem idx38_ix2 (e : Fin 1600000) : idx_main_v38 (ix2 e (0 : Fin 1)) = ix1 e := by
  funext a; match a with | ⟨0, _⟩ => rfl

/-- The raw destination column at `[e, 0]` is the destination of edge `e`. -/
theorem v38_ix2 (x1 : (⟨S2x1600000, .i32⟩ : BufTy).Contents (Elt Ideal)) (e : Fin 1600000) :
    val_main_v38 (F := Ideal) x1 (ix2 e (0 : Fin 1)) = val_main_v3 (F := Ideal) x1 (ix1 e) := by
  rw [val_main_v38_apply, idx38_ix2]

/-- The normalised destination column at `[e, 0]` is the normalised destination of edge `e`. -/
theorem v24_ix2 (x1 : (⟨S2x1600000, .i32⟩ : BufTy).Contents (Elt Ideal)) (e : Fin 1600000) :
    val_main_v24 (F := Ideal) x1 (ix2 e (0 : Fin 1)) = val_main_v23 (F := Ideal) x1 (ix1 e) := by
  rw [val_main_v24_apply, idx24_ix2]

/-- Where the raw destination reads nonnegative, the normalised destination column holds the same word. -/
theorem dstCol_same (x1 : (⟨S2x1600000, .i32⟩ : BufTy).Contents (Elt Ideal)) (e : Fin 1600000)
    (h : 0 ≤ (val_main_v38 (F := Ideal) x1 (ix2 e (0 : Fin 1))).toInt) :
    val_main_v24 (F := Ideal) x1 (ix2 e (0 : Fin 1)) = val_main_v38 (F := Ideal) x1 (ix2 e (0 : Fin 1)) := by
  rw [v38_ix2] at h
  rw [v24_ix2, v38_ix2]
  exact select_slt_zero_of_nonneg (val_main_v3 (F := Ideal) x1) (val_main_v19 (F := Ideal))
    (val_main_v21 (F := Ideal)) v19_zero (ix1 e) h

/-- An update of the 128-feature row scatter (raw destination column) that lands at `i`: the scalar gather at the
    normalised destination column reads, for that edge, node `i 0`. -/
theorem lands128_dst (x1 : (⟨S2x1600000, .i32⟩ : BufTy).Contents (Elt Ideal)) {j : SE128.Idx} {i : SN128.Idx}
    (h : scatterRow128.resultIdx? j (val_main_v38 (F := Ideal) x1) = some i) :
    gatherNode.operandIdx (ix1 (n := 1600000) (j 0)) (val_main_v24 (F := Ideal) x1) = ix1 (n := 100000) (i 0) :=
  (gatherNode_operandIdx _ _).trans
    (congrArg ix1 (rowAt_of_lands128 h (dstCol_same x1 (j 0) (scatterRow128_lands h).1)))

/-- The same for the 64-feature row scatter. -/
theorem lands64_dst (x1 : (⟨S2x1600000, .i32⟩ : BufTy).Contents (Elt Ideal)) {j : SE64.Idx} {i : SN64.Idx}
    (h : scatterRow64.resultIdx? j (val_main_v38 (F := Ideal) x1) = some i) :
    gatherNode.operandIdx (ix1 (n := 1600000) (j 0)) (val_main_v24 (F := Ideal) x1) = ix1 (n := 100000) (i 0) :=
  (gatherNode_operandIdx _ _).trans
    (congrArg ix1 (rowAt_of_lands64 h (dstCol_same x1 (j 0) (scatterRow64_lands h).1)))

/-- The program computes the normalised source column twice; the two are the same array. -/
theorem v32_eq_v17 (x1 : (⟨S2x1600000, .i32⟩ : BufTy).Contents (Elt Ideal)) :
    val_main_v32 (F := Ideal) x1 = val_main_v17 (F := Ideal) x1 := rfl

/-- The scalar gather at the normalised source column reads, for the edge of a 128-feature update, the node whose
    row the row gather at the same column reads. -/
theorem src128_idx (x1 : (⟨S2x1600000, .i32⟩ : BufTy).Contents (Elt Ideal)) (j : SE128.Idx) :
    gatherNode.operandIdx (ix1 (n := 1600000) (j 0)) (val_main_v17 (F := Ideal) x1)
      = ix1 (n := 100000) (rowAt (val_main_v32 (F := Ideal) x1) (j 0)) :=
  gatherNode_operandIdx _ _

/-- The same for the edge of a 64-feature update. -/
theorem src64_idx (x1 : (⟨S2x1600000, .i32⟩ : BufTy).Contents (Elt Ideal)) (j : SE64.Idx) :
    gatherNode.operandIdx (ix1 (n := 1600000) (j 0)) (val_main_v17 (F := Ideal) x1)
      = ix1 (n := 100000) (rowAt (val_main_v32 (F := Ideal) x1) (j 0)) :=
  gatherNode_operandIdx _ _

end Cert.Gcn.Ref
-- ==== Proof.LibLayerLaw.lean ====
/-
  The one algebraic law that joins the two arrangements of a graph-convolution layer, on the extended reals.
  The reference normalises every edge's message by both end points' normalisers and adds the node's own row
  scaled by the square of its normaliser; the kernel pre-scales every row by its own normaliser once, sums the
  gathered pre-scaled rows, adds the node's own pre-scaled row and multiplies the whole by the receiving node's
  normaliser. The two agree because a factor `D` with `0 ≤ D < ⊤` distributes over sums of extended reals
  (multiplication by such a `D` never meets `⊤ + ⊥` differently on the two sides), and multiplication is
  commutative and associative. Nothing is asked of the summands: they may be infinite.
-/
import Mathlib.Data.EReal.Operations
import Mathlib.Data.EReal.Inv
import Mathlib.Algebra.BigOperators.Group.Finset.Basic

namespace Cert.Gcn

open scoped BigOperators

/-- A nonnegative finite factor distributes over a finite sum of extended reals. -/
theorem mul_sum_of_nonneg_of_ne_top {ι : Type*} (s : Finset ι) (f : ι → EReal) {D : EReal} (h0 : 0 ≤ D) (ht : D ≠ ⊤) :
    D * ∑ j ∈ s, f j = ∑ j ∈ s, D * f j := by
  classical
  induction s using Finset.induction_on with
  | empty => simp
  | insert a s ha ih =>
    rw [Finset.sum_insert ha, Finset.sum_insert ha, EReal.left_distrib_of_nonneg_of_ne_top h0 ht, ih]

/-- THE LAYER LAW. `t j` is the gathered row entry of edge `j`, `a j` the sending node's normaliser, `D` the
    receiving node's, `H` the node's own row entry, `B` the bias. Left: the kernel's arrangement. Right: the
    reference's. (Each side's sum starts from the zero the scatter accumulates into.) -/
theorem layer_law {ι : Type*} (s : Finset ι) (t a : ι → EReal) {D : EReal} (h0 : 0 ≤ D) (ht : D ≠ ⊤) (H B : EReal) :
    D * ((0 + ∑ j ∈ s, t j * a j) + H * D) + B = ((0 + ∑ j ∈ s, t j * (a j * D)) + H * (D * D)) + B := by
  rw [EReal.left_distrib_of_nonneg_of_ne_top h0 ht, zero_add, zero_add, mul_sum_of_nonneg_of_ne_top s _ h0 ht]
  congr 2
  · exact Finset.sum_congr rfl fun j _ => by rw [mul_comm D, mul_assoc]
  · rw [mul_comm D, mul_assoc]

/-- A real number's image is a nonnegative finite extended real when the number is nonnegative. -/
theorem coe_nonneg_ne_top {d : ℝ} (hd : 0 ≤ d) : (0 : EReal) ≤ (d : EReal) ∧ (d : EReal) ≠ ⊤ :=
  ⟨EReal.coe_nonneg.mpr hd, EReal.coe_ne_top d⟩

end Cert.Gcn
-- ==== Proof.Bridge.lean ====
/-
  The bridge: the kernel's result array and the reference's are one function of the arguments, index by index, on the
  extended reals. Per layer the kernel scales every row of the product by the row's normaliser once, gathers and
  scatter-adds the scaled rows, adds the node's own scaled row and multiplies by the receiving node's normaliser;
  the reference weighs every gathered row by both end points' normalisers and the node's own row by the square of
  its normaliser. For an edge that is scattered into row `r` its raw destination index is `r`, in range and not
  negative, so the normalised and clamped index the reference gathers the destination's normaliser with is `r` too.
  The normaliser of a node is a nonnegative real (the inverse square root of one plus a count), so it distributes
  over the sums (the layer law); no finiteness of the features, weights or biases is used.
-/
import proofs.«152188_j84507776516794_2_alg».proof.Proof.KernelFold
import proofs.«152188_j84507776516794_2_alg».proof.Proof.RefRead
import proofs.«152188_j84507776516794_2_alg».proof.Proof.RefRead2
import proofs.«152188_j84507776516794_2_alg».proof.Proof.RefIndex
import proofs.«152188_j84507776516794_2_alg».proof.Proof.LibLayerLaw
import proofs.«152188_j84507776516794_2_alg».proof.Proof.LibColumnLayout
import proofs.«152188_j84507776516794_2_alg».proof.Proof.IndexDecode
import Idealize.ShloMosaic.Lib.ValueLayout

set_option maxRecDepth 16384

noncomputable section

namespace Cert.Gcn.Bridge

open Cert.Gcn Cert.Gcn.Ref Cert.ReferenceIdeal Cert.ReferenceIdeal.Read
open Idealize.ShloMosaic Idealize.ShloMosaic.ValueIdx Cert.Gcn.Layout

variable (x0 : (⟨S100000x64, .f32⟩ : BufTy).Contents (Elt Ideal)) (x1 : (⟨S2x1600000, .i32⟩ : BufTy).Contents (Elt Ideal)) (x2 : (⟨S64x128, .f32⟩ : BufTy).Contents (Elt Ideal)) (x3 : (⟨S128, .f32⟩ : BufTy).Contents (Elt Ideal)) (x4 : (⟨S128x64, .f32⟩ : BufTy).Contents (Elt Ideal)) (x5 : (⟨S64, .f32⟩ : BufTy).Contents (Elt Ideal))

/-- The normaliser column at row `r` is the reference's normaliser of node `r`. -/
theorem dcol_apply (r : Fin 100000) : Ker.dcol x1 (ix2 r (0 : Fin 1)) = val_main_v10 (F := Ideal) x1 (ix1 (n := 100000) r) := by
  unfold Ker.dcol
  exact shapeCast_a_a1_apply _ _ r 0

/-- A node's normaliser is nonnegative and finite. -/
theorem dinv_nonneg_ne_top (r : Fin 100000) :
    (0 : EReal) ≤ val_main_v10 (F := Ideal) x1 (ix1 (n := 100000) r) ∧ val_main_v10 (F := Ideal) x1 (ix1 (n := 100000) r) ≠ ⊤ := by
  obtain ⟨d, hd0, hd⟩ := val_main_v10_real x1 (ix1 (n := 100000) r)
  rw [hd]
  exact coe_nonneg_ne_top hd0

/-- The first layer's scaled rows: the reference's product, times the row's normaliser. -/
theorem hs1_apply (r : Fin 100000) (k : Fin 128) :
    Ker.scaledRows x0 x2 (Ker.dcol x1) (ix2 r k)
      = val_main_v11 (F := Ideal) x0 x2 (ix2 r k) * val_main_v10 (F := Ideal) x1 (ix1 (n := 100000) r) := by
  show (∑ κ : Fin 64, x0 (ix2 r κ) * x2 (ix2 κ k)) * Ker.dcol x1 (ix2 r (0 : Fin 1)) = _
  exact congrArg₂ (· * ·) (val_main_v11_read x0 x2 (ix2 r k)).symm (dcol_apply x1 r)

/-- A scatter-added aggregate at an index: zero plus the gathered rows of the edges that land there. -/
theorem aggregate128_apply (T : SN128.Idx → EReal) (i : SN128.Idx) :
    Ker.aggregate128 T x1 i
      = 0 + ∑ j ∈ Finset.univ.filter (fun j : SE128.Idx => scatterRow128.resultIdx? j (val_main_v38 (F := Ideal) x1) = some i),
          T (ix2 (rowAt (val_main_v32 (F := Ideal) x1) (j 0)) (j 1)) := by
  unfold Ker.aggregate128
  rw [scatterAdd_apply, Ideal.ofBits_zero_f32]
  exact congrArg (0 + ·) (Finset.sum_congr rfl fun j _ => gatherRow128_apply T _ j)

theorem aggregate64_apply (T : SN64.Idx → EReal) (i : SN64.Idx) :
    Ker.aggregate64 T x1 i
      = 0 + ∑ j ∈ Finset.univ.filter (fun j : SE64.Idx => scatterRow64.resultIdx? j (val_main_v38 (F := Ideal) x1) = some i),
          T (ix2 (rowAt (val_main_v32 (F := Ideal) x1) (j 0)) (j 1)) := by
  unfold Ker.aggregate64
  rw [scatterAdd_apply, Ideal.ofBits_zero_f32]
  exact congrArg (0 + ·) (Finset.sum_congr rfl fun j _ => gatherRow64_apply T _ j)

/-- The first layer's scaled rows at a general index. -/
theorem hs1_apply_idx (i : SN128.Idx) :
    Ker.scaledRows x0 x2 (Ker.dcol x1) i
      = val_main_v11 (F := Ideal) x0 x2 i * val_main_v10 (F := Ideal) x1 (ix1 (n := 100000) (i 0)) := by
  show (∑ κ : Fin 64, x0 (ix2 (i 0) κ) * x2 (ix2 κ (i 1))) * Ker.dcol x1 (ix2 (i 0) (0 : Fin 1)) = _
  exact congrArg₂ (· * ·) (val_main_v11_read x0 x2 i).symm (dcol_apply x1 (i 0))

set_option maxHeartbeats 400000 in
/-- THE LAYER, over any table `T` of 128 features, at an index `i` of the node table: the kernel's arrangement of the
    aggregate of `T`'s rows scaled by their normalisers is the reference's arrangement with both end points'
    normalisers on every edge. -/
theorem layer_generic128 (T : SN128.Idx → EReal) (B : EReal) (i : SN128.Idx) :
    val_main_v10 (F := Ideal) x1 (ix1 (n := 100000) (i 0))
        * ((0 + ∑ j ∈ Finset.univ.filter (fun j : SE128.Idx => scatterRow128.resultIdx? j (val_main_v38 (F := Ideal) x1) = some i),
              T (ix2 (rowAt (val_main_v32 (F := Ideal) x1) (j 0)) (j 1)) * val_main_v10 (F := Ideal) x1 (ix1 (n := 100000) (rowAt (val_main_v32 (F := Ideal) x1) (j 0))))
            + T i * val_main_v10 (F := Ideal) x1 (ix1 (n := 100000) (i 0)))
      + B
    = ((0 + ∑ j ∈ Finset.univ.filter (fun j : SE128.Idx => scatterRow128.resultIdx? j (val_main_v38 (F := Ideal) x1) = some i),
            T (gatherRow128.operandIdx j (val_main_v32 (F := Ideal) x1))
              * (val_main_v10 (F := Ideal) x1 (gatherNode.operandIdx (ix1 (n := 1600000) (j 0)) (val_main_v17 (F := Ideal) x1))
                * val_main_v10 (F := Ideal) x1 (gatherNode.operandIdx (ix1 (n := 1600000) (j 0)) (val_main_v24 (F := Ideal) x1))))
          + T i * (val_main_v10 (F := Ideal) x1 (ix1 (n := 100000) (i 0)) * val_main_v10 (F := Ideal) x1 (ix1 (n := 100000) (i 0))))
        + B := by
  obtain ⟨h0, ht⟩ := dinv_nonneg_ne_top x1 (i 0)
  refine (layer_law (Finset.univ.filter (fun j : SE128.Idx => scatterRow128.resultIdx? j (val_main_v38 (F := Ideal) x1) = some i))
    (fun j : SE128.Idx => T (ix2 (rowAt (val_main_v32 (F := Ideal) x1) (j 0)) (j 1)))
    (fun j : SE128.Idx => val_main_v10 (F := Ideal) x1 (ix1 (n := 100000) (rowAt (val_main_v32 (F := Ideal) x1) (j 0)))) h0 ht (T i) B).trans ?_
  refine congrArg₂ (· + ·) (congrArg₂ (· + ·) (congrArg₂ (· + ·) rfl (Finset.sum_congr rfl fun j hj => ?_)) rfl) rfl
  have hj' := (Finset.mem_filter.mp hj).2
  rw [gatherRow128_operandIdx, src128_idx, lands128_dst x1 hj']
  rfl

set_option maxHeartbeats 400000 in
/-- THE LAYER, over any table `T` of 64 features, at an index `i` of the node table: the kernel's arrangement of the
    aggregate of `T`'s rows scaled by their normalisers is the reference's arrangement with both end points'
    normalisers on every edge. -/
theorem layer_generic64 (T : SN64.Idx → EReal) (B : EReal) (i : SN64.Idx) :
    val_main_v10 (F := Ideal) x1 (ix1 (n := 100000) (i 0))
        * ((0 + ∑ j ∈ Finset.univ.filter (fun j : SE64.Idx => scatterRow64.resultIdx? j (val_main_v38 (F := Ideal) x1) = some i),
              T (ix2 (rowAt (val_main_v32 (F := Ideal) x1) (j 0)) (j 1)) * val_main_v10 (F := Ideal) x1 (ix1 (n := 100000) (rowAt (val_main_v32 (F := Ideal) x1) (j 0))))
            + T i * val_main_v10 (F := Ideal) x1 (ix1 (n := 100000) (i 0)))
      + B
    = ((0 + ∑ j ∈ Finset.univ.filter (fun j : SE64.Idx => scatterRow64.resultIdx? j (val_main_v38 (F := Ideal) x1) = some i),
            T (gatherRow64.operandIdx j (val_main_v32 (F := Ideal) x1))
              * (val_main_v10 (F := Ideal) x1 (gatherNode.operandIdx (ix1 (n := 1600000) (j 0)) (val_main_v17 (F := Ideal) x1))
                * val_main_v10 (F := Ideal) x1 (gatherNode.operandIdx (ix1 (n := 1600000) (j 0)) (val_main_v24 (F := Ideal) x1))))
          + T i * (val_main_v10 (F := Ideal) x1 (ix1 (n := 100000) (i 0)) * val_main_v10 (F := Ideal) x1 (ix1 (n := 100000) (i 0))))
        + B := by
  obtain ⟨h0, ht⟩ := dinv_nonneg_ne_top x1 (i 0)
  refine (layer_law (Finset.univ.filter (fun j : SE64.Idx => scatterRow64.resultIdx? j (val_main_v38 (F := Ideal) x1) = some i))
    (fun j : SE64.Idx => T (ix2 (rowAt (val_main_v32 (F := Ideal) x1) (j 0)) (j 1)))
    (fun j : SE64.Idx => val_main_v10 (F := Ideal) x1 (ix1 (n := 100000) (rowAt (val_main_v32 (F := Ideal) x1) (j 0)))) h0 ht (T i) B).trans ?_
  refine congrArg₂ (· + ·) (congrArg₂ (· + ·) (congrArg₂ (· + ·) rfl (Finset.sum_congr rfl fun j hj => ?_)) rfl) rfl
  have hj' := (Finset.mem_filter.mp hj).2
  rw [gatherRow64_operandIdx, src64_idx, lands64_dst x1 hj']
  rfl

set_option maxHeartbeats 400000 in
/-- LAYER ONE, before the rectifier: the kernel's arrangement is the reference's. -/
theorem layer1_eq (i : SN128.Idx) :
    Ker.dcol x1 (ix2 (i 0) (0 : Fin 1)) * (Ker.aggregate128 (Ker.scaledRows x0 x2 (Ker.dcol x1)) x1 i + Ker.scaledRows x0 x2 (Ker.dcol x1) i)
      + shapeCast (s := S128) S1x128 x3 (by decide) (ix2 (0 : Fin 1) (i 1))
      = val_main_v47 (F := Ideal) x0 x1 x2 x3 i := by
  rw [val_main_v47_read]
  refine Eq.trans ?_ (layer_generic128 x1 (val_main_v11 (F := Ideal) x0 x2) (x3 (ix1 (n := 128) (i 1))) i)
  refine congrArg₂ (· + ·) (congrArg₂ (· * ·) (dcol_apply x1 (i 0)) (congrArg₂ (· + ·) ?_ (hs1_apply_idx x0 x1 x2 i)))
    (shapeCast_a_1a_apply x3 _ 0 (i 1))
  rw [aggregate128_apply]
  exact congrArg₂ (· + ·) rfl (Finset.sum_congr rfl fun j _ => hs1_apply x0 x1 x2 _ _)

set_option maxHeartbeats 400000 in
/-- The second layer's scaled rows: the reference's second product, times the row's normaliser. -/
theorem hs2_apply_idx (i : SN64.Idx) :
    Ker.layer2Rows (Ker.scaledRows x0 x2 (Ker.dcol x1)) (Ker.aggregate128 (Ker.scaledRows x0 x2 (Ker.dcol x1)) x1) (Ker.dcol x1) (shapeCast (s := S128) S1x128 x3 (by decide)) x4 i
      = val_main_v60 (F := Ideal) x0 x1 x2 x3 x4 i * val_main_v10 (F := Ideal) x1 (ix1 (n := 100000) (i 0)) := by
  show (∑ k : Fin 128, max (Ker.dcol x1 (ix2 (i 0) (0 : Fin 1))
        * (Ker.aggregate128 (Ker.scaledRows x0 x2 (Ker.dcol x1)) x1 (ix2 (i 0) k) + Ker.scaledRows x0 x2 (Ker.dcol x1) (ix2 (i 0) k))
        + shapeCast (s := S128) S1x128 x3 (by decide) (ix2 (0 : Fin 1) k)) 0 * x4 (ix2 k (i 1))) * Ker.dcol x1 (ix2 (i 0) (0 : Fin 1)) = _
  refine congrArg₂ (· * ·) ?_ (dcol_apply x1 (i 0))
  rw [val_main_v60_read]
  refine Finset.sum_congr rfl fun k _ => congrArg₂ (· * ·) ?_ rfl
  rw [val_main_v48_read]
  exact congrArg (max · 0) (layer1_eq x0 x1 x2 x3 (ix2 (i 0) k))

set_option maxHeartbeats 400000 in
/-- THE RESULT: the kernel's result array is the reference's. -/
theorem result_eq :
    Ker.combineRows (Ker.layer2Rows (Ker.scaledRows x0 x2 (Ker.dcol x1)) (Ker.aggregate128 (Ker.scaledRows x0 x2 (Ker.dcol x1)) x1) (Ker.dcol x1) (shapeCast (s := S128) S1x128 x3 (by decide)) x4) (Ker.aggregate64 (Ker.layer2Rows (Ker.scaledRows x0 x2 (Ker.dcol x1)) (Ker.aggregate128 (Ker.scaledRows x0 x2 (Ker.dcol x1)) x1) (Ker.dcol x1) (shapeCast (s := S128) S1x128 x3 (by decide)) x4) x1) (Ker.dcol x1) (shapeCast (s := S64) S1x64 x5 (by decide))
      = val_main_v96 (F := Ideal) x0 x1 x2 x3 x4 x5 := by
  funext i
  obtain ⟨r, q, rfl⟩ : ∃ (r : Fin 100000) (q : Fin 64), i = ix2 r q := ⟨i 0, i 1, eq_ix2 i⟩
  rw [val_main_v96_read, val_main_v59_eq, val_main_v87_eq, val_main_v81_eq, val_main_v66_eq, val_main_v73_eq]
  refine Eq.trans ?_ (layer_generic64 x1 (val_main_v60 (F := Ideal) x0 x1 x2 x3 x4) (x5 (ix1 (n := 64) q)) (ix2 r q))
  show Ker.dcol x1 (ix2 r (0 : Fin 1)) * (Ker.aggregate64 (Ker.layer2Rows (Ker.scaledRows x0 x2 (Ker.dcol x1)) (Ker.aggregate128 (Ker.scaledRows x0 x2 (Ker.dcol x1)) x1) (Ker.dcol x1) (shapeCast (s := S128) S1x128 x3 (by decide)) x4) x1 (ix2 r q) + Ker.layer2Rows (Ker.scaledRows x0 x2 (Ker.dcol x1)) (Ker.aggregate128 (Ker.scaledRows x0 x2 (Ker.dcol x1)) x1) (Ker.dcol x1) (shapeCast (s := S128) S1x128 x3 (by decide)) x4 (ix2 r q))
    + shapeCast (s := S64) S1x64 x5 (by decide) (ix2 (0 : Fin 1) q) = _
  refine congrArg₂ (· + ·) (congrArg₂ (· * ·) (dcol_apply x1 r) (congrArg₂ (· + ·) ?_ (hs2_apply_idx x0 x1 x2 x3 x4 (ix2 r q))))
    (shapeCast_a_1a_apply x5 _ 0 q)
  rw [aggregate64_apply]
  exact congrArg₂ (· + ·) rfl (Finset.sum_congr rfl fun j _ => hs2_apply_idx x0 x1 x2 x3 x4 _)

end Cert.Gcn.Bridge

end
-- ==== Proof.lean ====
/-
  A two-layer graph convolution over 100000 nodes and 1600000 edges: the kernel against its jnp reference, on the
  extended reals. With `d[i]` the inverse square root of one plus the number of edges whose destination is `i`, and
  `h = X · W` a layer's feature product, the reference's layer is
      out[i] = Σ_{e → i} h[src e] · (d[src e] · d[dst e]) + h[i] · (d[i] · d[i]) + b,
  the kernel's
      out[i] = d[i] · (Σ_{e → i} (h · d)[src e] + (h · d)[i]) + b,
  with a rectifier between the two layers and the kernel's three bodies pipelined over blocks of 2000 rows. Both
  programs compute `d`, the edge columns and their normalisation by the same host operations; an edge is scattered
  into row `i` exactly when its raw destination index is `i`, and then the reference's gather of `d` at the
  normalised destination reads `d[i]`. Since `d[i]` is a nonnegative real it distributes over the sums of extended
  reals, which is the only law needed: the precondition (finite float inputs) is never opened.

  The frames of the two kernel programs are the generated ones; the reference's is its generated run with the
  result dropped. The ideal pass rewrote no operation, so `preserves` has no conjunct.
-/
import proofs.«152188_j84507776516794_2_alg».proof.Defs
import proofs.«152188_j84507776516794_2_alg».proof.Proof.Gen.Kernel
import proofs.«152188_j84507776516794_2_alg».proof.Proof.Gen.Kernel.Skeleton
import proofs.«152188_j84507776516794_2_alg».proof.Proof.Gen.Kernel.Launch
import proofs.«152188_j84507776516794_2_alg».proof.Proof.Gen.Kernel.Points
import proofs.«152188_j84507776516794_2_alg».proof.Proof.Gen.Kernel.Frame
import proofs.«152188_j84507776516794_2_alg».proof.Proof.Gen.KernelIdeal
import proofs.«152188_j84507776516794_2_alg».proof.Proof.Gen.KernelIdeal.Skeleton
import proofs.«152188_j84507776516794_2_alg».proof.Proof.Gen.KernelIdeal.Launch
import proofs.«152188_j84507776516794_2_alg».proof.Proof.Gen.KernelIdeal.Points
import proofs.«152188_j84507776516794_2_alg».proof.Proof.Gen.KernelIdeal.Frame
import proofs.«152188_j84507776516794_2_alg».proof.Proof.Gen.ReferenceIdeal
import proofs.«152188_j84507776516794_2_alg».proof.Proof.Gen.ReferenceIdeal.Run
import proofs.«152188_j84507776516794_2_alg».proof.Proof.Gen.ReferenceIdeal.Read
import proofs.«152188_j84507776516794_2_alg».proof.Proof.Gen.Pre_finite_inputs
import proofs.«152188_j84507776516794_2_alg».proof.Proof.KernelRun
import proofs.«152188_j84507776516794_2_alg».proof.Proof.KernelFold
import proofs.«152188_j84507776516794_2_alg».proof.Proof.Bridge
import Idealize.ShloMosaic.Adequacy
import Idealize.ShloMosaic.Init

noncomputable section

namespace Cert.Proof

open Idealize.ShloMosaic Idealize.SL.Sem

/-- The word-level kernel runs and leaves its arguments as launched. -/
theorem frame_k : Cert.frame_Kernel := fun m ρ _ => Cert.Kernel.Gen.frame m ρ
/-- So does the idealized kernel. -/
theorem frame_ki : Cert.frame_KernelIdeal := fun m ρ _ => Cert.KernelIdeal.Gen.frame m ρ
/-- The reference's run, its result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments, the idealized kernel ends with its result array at the fold of its
    host stretches and regions, the reference at its operations' composed term; the two are one function of the
    arguments. -/
theorem algebraic : Cert.algebraic_KernelIdeal_ReferenceIdeal := by
  intro m ρ m' ρ' _ hagree
  refine ⟨fun c => Cert.KernelIdeal.Gen.W6 m ρ c (Proc.devRef .tc Cert.KernelIdeal.main_v38), Cert.Gcn.Ker.run_named (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v96_eq, (hagree c).1, (hagree c).2.1, (hagree c).2.2.1, (hagree c).2.2.2.1,
    (hagree c).2.2.2.2.1, (hagree c).2.2.2.2.2]
  exact ((Cert.Gcn.Ker.W6_v38 m ρ c).trans (Cert.Gcn.Bridge.result_eq _ _ _ _ _ _)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
